-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S32x256 : Shape := ⟨2, ![32, 256]⟩
abbrev S32 : Shape := ⟨1, ![32]⟩
abbrev S256x32 : Shape := ⟨2, ![256, 32]⟩
abbrev S256 : Shape := ⟨1, ![256]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel
  bcast_S_S32x256 : S_.BroadcastsInDim S32x256 (![] : Fin 0 → Fin S32x256.rank)
  reducesTo_S32x256_S_d0_1 : S32x256.ReducesTo [0, 1] S_
  bcast_S_S32 : S_.BroadcastsInDim S32 (![] : Fin 0 → Fin S32.rank)
  reducesTo_S32_S_d0 : S32.ReducesTo [0] S_
  bcast_S_S256x32 : S_.BroadcastsInDim S256x32 (![] : Fin 0 → Fin S256x32.rank)
  reducesTo_S256x32_S_d0_1 : S256x32.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S8x256x128x128 .f32) (main_arg1 : FVec F S32x256 .f32) (main_arg2 : FVec F S32 .f32) (main_arg3 : FVec F S256x32 .f32) (main_arg4 : FVec F S256 .f32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  let main_v4 : FVec F S32x256 .f32 := Host.absf main_arg1
  let main_cst_0 : FVec F S_ .f32 := constant S_ .f32 0x7F800000#32
  let main_v5 : FVec F S32x256 .f32 := broadcastInDim S32x256 ![] bcast_S_S32x256 main_cst_0
  let main_v6 : IVec S32x256 1 := cmpf .olt main_v4 main_v5
  let main_c_1 : IVec S_ 1 := constantI S_ 1 1#1
  let main_v7 : IVec S_ 1 := (fun x v => Host.reduce IntOp.andi x v reducesTo_S32x256_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S8x256x128x128 : Shape := ⟨4, ![8, 256, 128, 128]⟩
abbrev S32x256 : Shape := ⟨2, ![32, 256]⟩
abbrev S32 : Shape := ⟨1, ![32]⟩
abbrev S256x32 : Shape := ⟨2, ![256, 32]⟩
abbrev S256 : Shape := ⟨1, ![256]⟩
abbrev S8x256x16384 : Shape := ⟨3, ![8, 256, 16384]⟩
abbrev S8x256x256 : Shape := ⟨3, ![8, 256, 256]⟩
abbrev S8x256x1 : Shape := ⟨3, ![8, 256, 1]⟩
abbrev S1x256x4096 : Shape := ⟨3, ![1, 256, 4096]⟩
abbrev S1x256x256 : Shape := ⟨3, ![1, 256, 256]⟩
abbrev S1x256x1 : Shape := ⟨3, ![1, 256, 1]⟩
abbrev S256x256 : Shape := ⟨2, ![256, 256]⟩
abbrev S256x1 : Shape := ⟨2, ![256, 1]⟩
abbrev S256x4096 : Shape := ⟨2, ![256, 4096]⟩
abbrev S4096x256 : Shape := ⟨2, ![4096, 256]⟩
abbrev S1x256 : Shape := ⟨2, ![1, 256]⟩
abbrev S1 : Shape := ⟨1, ![1]⟩
abbrev S1x1 : Shape := ⟨2, ![1, 1]⟩
abbrev S8x256 : Shape := ⟨2, ![8, 256]⟩
abbrev S8x32 : Shape := ⟨2, ![8, 32]⟩
abbrev S1x32 : Shape := ⟨2, ![1, 32]⟩
abbrev S_ : Shape := ⟨0, ![]⟩

abbrev nBuf : Space → Nat
  | .hbm => 34
  | .vmem => 18
  | .smem => 0
  | _ => 0

abbrev bufTy : (tb : Table) → Fin (tcTables nBuf tb) → BufTy
  | .hbm, ⟨0, _⟩ => ⟨S8x256x128x128, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S8x256x16384, .f32⟩
  | .hbm, ⟨6, _⟩ => ⟨S8x256x256, .f32⟩
  | .hbm, ⟨7, _⟩ => ⟨S8x256x1, .f32⟩
  | .hbm, ⟨8, _⟩ => ⟨S8x256x1, .f32⟩
  | .hbm, ⟨9, _⟩ => ⟨S8x256, .f32⟩
  | .hbm, ⟨10, _⟩ => ⟨S256x32, .f32⟩
  | .hbm, ⟨11, _⟩ => ⟨S8x32, .f32⟩
  | .hbm, ⟨12, _⟩ => ⟨S1x32, .f32⟩
  | .hbm, ⟨13, _⟩ => ⟨S8x32, .f32⟩
  | .hbm, ⟨14, _⟩ => ⟨S8x32, .f32⟩
  | .hbm, ⟨15, _⟩ => ⟨S_, .f32⟩
  | .hbm, ⟨16, _⟩ => ⟨S8x32, .f32⟩
  | .hbm, ⟨17, _⟩ => ⟨S8x32, .f32⟩
  | .hbm, ⟨18, _⟩ => ⟨S32x256, .f32⟩
  | .hbm, ⟨19, _⟩ => ⟨S8x256, .f32⟩
  | .hbm, ⟨20, _⟩ => ⟨S1x256, .f32⟩
  | .hbm, ⟨21, _⟩ => ⟨S8x256, .f32⟩
  | .hbm, ⟨22, _⟩ => ⟨S8x256, .f32⟩
  | .hbm, ⟨23, _⟩ => ⟨S8x256, .f32⟩
  | .hbm, ⟨24, _⟩ => ⟨S8x256, .f32⟩
  | .hbm, ⟨25, _⟩ => ⟨S_, .f32⟩
  | .hbm, ⟨26, _⟩ => ⟨S8x256, .f32⟩
  | .hbm, ⟨27, _⟩ => ⟨S8x256, .f32⟩
  | .hbm, ⟨28, _⟩ => ⟨S_, .f32⟩
  | .hbm, ⟨29, _⟩ => ⟨S8x256, .f32⟩
  | .hbm, ⟨30, _⟩ => ⟨S8x256, .f32⟩
  | .hbm, ⟨31, _⟩ => ⟨S8x256x1, .f32⟩
  | .hbm, ⟨32, _⟩ => ⟨S8x256x16384, .f32⟩
  | .hbm, ⟨33, _⟩ => ⟨S8x256x128x128, .f32⟩
  | .local _ .vmem, ⟨0, _⟩ => ⟨S1x256x4096, .f32⟩
  | .local _ .vmem, ⟨1, _⟩ => ⟨S1x256x4096, .f32⟩
  | .local _ .vmem, ⟨2, _⟩ => ⟨S1x256x256, .f32⟩
  | .local _ .vmem, ⟨3, _⟩ => ⟨S1x256x256, .f32⟩
  | .local _ .vmem, ⟨4, _⟩ => ⟨S1x256x1, .f32⟩
  | .local _ .vmem, ⟨5, _⟩ => ⟨S1x256x1, .f32⟩
  | .local _ .vmem, ⟨6, _⟩ => ⟨S1x256x256, .f32⟩
  | .local _ .vmem, ⟨7, _⟩ => ⟨S1x256x256, .f32⟩
  | .local _ .vmem, ⟨8, _⟩ => ⟨S1x256x1, .f32⟩
  | .local _ .vmem, ⟨9, _⟩ => ⟨S1x256x1, .f32⟩
  | .local _ .vmem, ⟨10, _⟩ => ⟨S1x256x1, .f32⟩
  | .local _ .vmem, ⟨11, _⟩ => ⟨S1x256x1, .f32⟩
  | .local _ .vmem, ⟨12, _⟩ => ⟨S1x256x4096, .f32⟩
  | .local _ .vmem, ⟨13, _⟩ => ⟨S1x256x4096, .f32⟩
  | .local _ .vmem, ⟨14, _⟩ => ⟨S1x256x1, .f32⟩
  | .local _ .vmem, ⟨15, _⟩ => ⟨S1x256x1, .f32⟩
  | .local _ .vmem, ⟨16, _⟩ => ⟨S1x256x4096, .f32⟩
  | .local _ .vmem, ⟨17, _⟩ => ⟨S1x256x4096, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage2_0 : Fin 2 → Memref sig .tc .vmem S1x256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x256x4096 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

class Facts₀ : Prop where
  shapeCasts_S8x256x128x128_S8x256x16384 : S8x256x128x128.ShapeCasts S8x256x16384
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  bitsLt_bf16_f32 : FTy.bits .bf16 < FTy.bits .f32
  transposes_S256x4096_p1_0_S4096x256 : S256x4096.Transposes [1, 0] S4096x256
  transposes_S256x1_p1_0_S1x256 : S256x1.Transposes [1, 0] S1x256
  broadcasts_S256x1_S256x256 : S256x1.Broadcasts S256x256
  broadcasts_S1x256_S256x256 : S1x256.Broadcasts S256x256
  reduces_S256x256_S256 : S256x256.Reduces [1] S256
  reduces_S256x1_S1 : S256x1.Reduces [0] S1
  shapeCasts_S1_S1x1 : S1.ShapeCasts S1x1
  broadcasts_S1x1_S256x256 : S1x1.Broadcasts S256x256
  iota_S256x256_d0_w32 : S256x256.Iotas .tc 32 [0]
  iota_S256x256_d1_w32 : S256x256.Iotas .tc 32 [1]
  shapeCasts_S8x256x1_S8x256 : S8x256x1.ShapeCasts S8x256
  transposes_S32x256_S256x32_1_0 : S32x256.Transposes [1, 0] S256x32
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  transposes_S256x32_S32x256_1_0 : S256x32.Transposes [1, 0] S32x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S_S8x256 : S_.BroadcastsInDim S8x256 (![] : Fin 0 → Fin S8x256.rank)
  shapeCasts_S8x256_S8x256x1 : S8x256.ShapeCasts S8x256x1
  broadcasts_S256x1_S256x4096 : S256x1.Broadcasts S256x4096
  shapeCasts_S256x4096_S1x256x4096 : S256x4096.ShapeCasts S1x256x4096
  shapeCasts_S8x256x16384_S8x256x128x128 : S8x256x16384.ShapeCasts S8x256x128x128
  dot_S256x4096_S4096x256_S256x256_1_0_0_1_n_n_wf : DotDims.WF S256x4096 S4096x256 S256x256 [1] [0] [0] [1] [] []
  dot_S256x256_S256x256_S256x256_1_0_0_1_n_n_wf : DotDims.WF S256x256 S256x256 S256x256 [1] [0] [0] [1] [] []
  dot_S8x256_S256x32_S8x32_1_0_0_1_n_n_wf : DotDims.WF S8x256 S256x32 S8x32 [1] [0] [0] [1] [] []
  dot_S8x32_S32x256_S8x256_1_0_0_1_n_n_wf : DotDims.WF S8x32 S32x256 S8x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x256x16384.size a
  hwx0_0 : ∀ i : grid0.Coords, EltTy.bits .f32 = 32 ∨ (Rect.block (s := S8x256x16384) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S8x256x256.size a
  hwx0_1 : ∀ i : grid0.Coords, EltTy.bits .f32 = 32 ∨ (Rect.block (s := S8x256x256) S1x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1.size a ≤ S8x256x1.size a
  hwx0_2 : ∀ i : grid0.Coords, EltTy.bits .f32 = 32 ∨ (Rect.block (s := S8x256x1) S1x256x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x256.size a ≤ S8x256x256.size a
  hwx1_0 : ∀ i : grid1.Coords, EltTy.bits .f32 = 32 ∨ (Rect.block (s := S8x256x256) S1x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x1.size a ≤ S8x256x1.size a
  hwx1_1 : ∀ i : grid1.Coords, EltTy.bits .f32 = 32 ∨ (Rect.block (s := S8x256x1) S1x256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x1.size a ≤ S8x256x1.size a
  hwx1_2 : ∀ i : grid1.Coords, EltTy.bits .f32 = 32 ∨ (Rect.block (s := S8x256x1) S1x256x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x256x4096.size a ≤ S8x256x16384.size a
  hwx2_0 : ∀ i : grid2.Coords, EltTy.bits .f32 = 32 ∨ (Rect.block (s := S8x256x16384) S1x256x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x256x1.size a ≤ S8x256x1.size a
  hwx2_1 : ∀ i : grid2.Coords, EltTy.bits .f32 = 32 ∨ (Rect.block (s := S8x256x1) S1x256x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256x4096.size a ≤ S8x256x16384.size a
  hwx2_2 : ∀ i : grid2.Coords, EltTy.bits .f32 = 32 ∨ (Rect.block (s := S8x256x16384) S1x256x4096.size (cc2_transform_2 i) (hinb2_2 i)).WholeWords (EltTy.packing .f32)

variable [Facts₀]

def dot_S256x4096_S4096x256_S256x256_1_0_0_1_n_n : DotDims S256x4096 S4096x256 S256x256 where
  lhsContracting := [1]
  rhsContracting := [0]
  lhsNonContracting := [0]
  rhsNonContracting := [1]
  lhsBatch := []
  rhsBatch := []
  wf := dot_S256x4096_S4096x256_S256x256_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S8x256_S256x32_S8x32_1_0_0_1_n_n : DotDims S8x256 S256x32 S8x32 where
  lhsContracting := [1]
  rhsContracting := [0]
  lhsNonContracting := [0]
  rhsNonContracting := [1]
  lhsBatch := []
  rhsBatch := []
  wf := dot_S8x256_S256x32_S8x32_1_0_0_1_n_n_wf
def dot_S8x32_S32x256_S8x256_1_0_0_1_n_n : DotDims S8x32 S32x256 S8x256 where
  lhsContracting := [1]
  rhsContracting := [0]
  lhsNonContracting := [0]
  rhsNonContracting := [1]
  lhsBatch := []
  rhsBatch := []
  wf := dot_S8x32_S32x256_S8x256_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x256x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1_0) S1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_1) S1x256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x256x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1x256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1x256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x256x4096.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8x256x128x128 : Shape := ⟨4, ![8, 256, 128, 128]⟩
abbrev S32x256 : Shape := ⟨2, ![32, 256]⟩
abbrev S32 : Shape := ⟨1, ![32]⟩
abbrev S256x32 : Shape := ⟨2, ![256, 32]⟩
abbrev S256 : Shape := ⟨1, ![256]⟩
abbrev S8x256x16384 : Shape := ⟨3, ![8, 256, 16384]⟩
abbrev S_ : Shape := ⟨0, ![]⟩
abbrev S8x256 : Shape := ⟨2, ![8, 256]⟩
abbrev S8x256x1 : Shape := ⟨3, ![8, 256, 1]⟩
abbrev S8x256x256 : Shape := ⟨3, ![8, 256, 256]⟩
abbrev S8 : Shape := ⟨1, ![8]⟩
abbrev S8x1x1 : Shape := ⟨3, ![8, 1, 1]⟩
abbrev S256x256 : Shape := ⟨2, ![256, 256]⟩
abbrev S8x32 : Shape := ⟨2, ![8, 32]⟩
abbrev S1x32 : Shape := ⟨2, ![1, 32]⟩
abbrev S1x256 : Shape := ⟨2, ![1, 256]⟩
abbrev S8x256x1x1 : Shape := ⟨4, ![8, 256, 1, 1]⟩

abbrev nBuf : Space → Nat
  | .hbm => 115
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S32x256, .f32⟩
  | .hbm, ⟨2, _⟩ => ⟨S32, .f32⟩
  | .hbm, ⟨3, _⟩ => ⟨S256x32, .f32⟩
  | .hbm, ⟨4, _⟩ => ⟨S256, .f32⟩
  | .hbm, ⟨5, _⟩ => ⟨S8x256x16384, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S8x256x16384, .f32⟩
  | .hbm, ⟨13, _⟩ => ⟨S8x256x16384, .f32⟩
  | .hbm, ⟨14, _⟩ => ⟨S8x256x256, .f32⟩
  | .hbm, ⟨15, _⟩ => ⟨S_, .f32⟩
  | .hbm, ⟨16, _⟩ => ⟨S8x256x256, .f32⟩
  | .hbm, ⟨17, _⟩ => ⟨S8x256x256, .f32⟩
  | .hbm, ⟨18, _⟩ => ⟨S8x256x256, .f32⟩
  | .hbm, ⟨19, _⟩ => ⟨S_, .f32⟩
  | .hbm, ⟨20, _⟩ => ⟨S8, .f32⟩
  | .hbm, ⟨21, _⟩ => ⟨S8x1x1, .f32⟩
  | .hbm, ⟨22, _⟩ => ⟨S8x1x1, .f32⟩
  | .hbm, ⟨23, _⟩ => ⟨S8x256x256, .f32⟩
  | .hbm, ⟨24, _⟩ => ⟨S8x256x256, .f32⟩
  | .hbm, ⟨25, _⟩ => ⟨S256x256, .i32⟩
  | .hbm, ⟨26, _⟩ => ⟨S256x256, .i32⟩
  | .hbm, ⟨27, _⟩ => ⟨S_, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S256x256, .f32⟩
  | .hbm, ⟨32, _⟩ => ⟨S8x256x256, .f32⟩
  | .hbm, ⟨33, _⟩ => ⟨S_, .f32⟩
  | .hbm, ⟨34, _⟩ => ⟨S8x256x256, .f32⟩
  | .hbm, ⟨35, _⟩ => ⟨S8x256x256, .f32⟩
  | .hbm, ⟨36, _⟩ => ⟨S8x256x256, .f32⟩
  | .hbm, ⟨37, _⟩ => ⟨S8x256x256, .f32⟩
  | .hbm, ⟨38, _⟩ => ⟨S_, .f32⟩
  | .hbm, ⟨39, _⟩ => ⟨S8x256x256, .f32⟩
  | .hbm, ⟨40, _⟩ => ⟨S8x256x256, .f32⟩
  | .hbm, ⟨41, _⟩ => ⟨S8x256x256, .f32⟩
  | .hbm, ⟨42, _⟩ => ⟨S8x256x256, .f32⟩
  | .hbm, ⟨43, _⟩ => ⟨S_, .f32⟩
  | .hbm, ⟨44, _⟩ => ⟨S8x256x256, .f32⟩
  | .hbm, ⟨45, _⟩ => ⟨S8x256x256, .f32⟩
  | .hbm, ⟨46, _⟩ => ⟨S8x256x256, .f32⟩
  | .hbm, ⟨47, _⟩ => ⟨S8x256x256, .f32⟩
  | .hbm, ⟨48, _⟩ => ⟨S_, .f32⟩
  | .hbm, ⟨49, _⟩ => ⟨S8x256x256, .f32⟩
  | .hbm, ⟨50, _⟩ => ⟨S8x256x256, .f32⟩
  | .hbm, ⟨51, _⟩ => ⟨S8x256x256, .f32⟩
  | .hbm, ⟨52, _⟩ => ⟨S8x256x256, .f32⟩
  | .hbm, ⟨53, _⟩ => ⟨S_, .f32⟩
  | .hbm, ⟨54, _⟩ => ⟨S8x256x256, .f32⟩
  | .hbm, ⟨55, _⟩ => ⟨S8x256x256, .f32⟩
  | .hbm, ⟨56, _⟩ => ⟨S8x256x256, .f32⟩
  | .hbm, ⟨57, _⟩ => ⟨S8x256x256, .f32⟩
  | .hbm, ⟨58, _⟩ => ⟨S_, .f32⟩
  | .hbm, ⟨59, _⟩ => ⟨S8x256x256, .f32⟩
  | .hbm, ⟨60, _⟩ => ⟨S8x256x256, .f32⟩
  | .hbm, ⟨61, _⟩ => ⟨S8x256x256, .f32⟩
  | .hbm, ⟨62, _⟩ => ⟨S8x256x256, .f32⟩
  | .hbm, ⟨63, _⟩ => ⟨S_, .f32⟩
  | .hbm, ⟨64, _⟩ => ⟨S8x256x256, .f32⟩
  | .hbm, ⟨65, _⟩ => ⟨S8x256x256, .f32⟩
  | .hbm, ⟨66, _⟩ => ⟨S8x256x256, .f32⟩
  | .hbm, ⟨67, _⟩ => ⟨S8x256x256, .f32⟩
  | .hbm, ⟨68, _⟩ => ⟨S_, .f32⟩
  | .hbm, ⟨69, _⟩ => ⟨S8x256x256, .f32⟩
  | .hbm, ⟨70, _⟩ => ⟨S8x256x256, .f32⟩
  | .hbm, ⟨71, _⟩ => ⟨S8x256x256, .f32⟩
  | .hbm, ⟨72, _⟩ => ⟨S8x256x256, .f32⟩
  | .hbm, ⟨73, _⟩ => ⟨S_, .f32⟩
  | .hbm, ⟨74, _⟩ => ⟨S8x256x256, .f32⟩
  | .hbm, ⟨75, _⟩ => ⟨S8x256x256, .f32⟩
  | .hbm, ⟨76, _⟩ => ⟨S8x256x256, .f32⟩
  | .hbm, ⟨77, _⟩ => ⟨S8x256x256, .f32⟩
  | .hbm, ⟨78, _⟩ => ⟨S_, .f32⟩
  | .hbm, ⟨79, _⟩ => ⟨S8x256x256, .f32⟩
  | .hbm, ⟨80, _⟩ => ⟨S8x256x256, .f32⟩
  | .hbm, ⟨81, _⟩ => ⟨S8x256x256, .f32⟩
  | .hbm, ⟨82, _⟩ => ⟨S8x256x256, .f32⟩
  | .hbm, ⟨83, _⟩ => ⟨S8x1x1, .f32⟩
  | .hbm, ⟨84, _⟩ => ⟨S8x256x256, .f32⟩
  | .hbm, ⟨85, _⟩ => ⟨S8x256x256, .f32⟩
  | .hbm, ⟨86, _⟩ => ⟨S_, .f32⟩
  | .hbm, ⟨87, _⟩ => ⟨S8x256, .f32⟩
  | .hbm, ⟨88, _⟩ => ⟨S_, .f32⟩
  | .hbm, ⟨89, _⟩ => ⟨S8x256, .f32⟩
  | .hbm, ⟨90, _⟩ => ⟨S8x256, .f32⟩
  | .hbm, ⟨91, _⟩ => ⟨S256x32, .f32⟩
  | .hbm, ⟨92, _⟩ => ⟨S8x32, .f32⟩
  | .hbm, ⟨93, _⟩ => ⟨S1x32, .f32⟩
  | .hbm, ⟨94, _⟩ => ⟨S8x32, .f32⟩
  | .hbm, ⟨95, _⟩ => ⟨S8x32, .f32⟩
  | .hbm, ⟨96, _⟩ => ⟨S_, .f32⟩
  | .hbm, ⟨97, _⟩ => ⟨S8x32, .f32⟩
  | .hbm, ⟨98, _⟩ => ⟨S8x32, .f32⟩
  | .hbm, ⟨99, _⟩ => ⟨S32x256, .f32⟩
  | .hbm, ⟨100, _⟩ => ⟨S8x256, .f32⟩
  | .hbm, ⟨101, _⟩ => ⟨S1x256, .f32⟩
  | .hbm, ⟨102, _⟩ => ⟨S8x256, .f32⟩
  | .hbm, ⟨103, _⟩ => ⟨S8x256, .f32⟩
  | .hbm, ⟨104, _⟩ => ⟨S8x256, .f32⟩
  | .hbm, ⟨105, _⟩ => ⟨S8x256, .f32⟩
  | .hbm, ⟨106, _⟩ => ⟨S_, .f32⟩
  | .hbm, ⟨107, _⟩ => ⟨S8x256, .f32⟩
  | .hbm, ⟨108, _⟩ => ⟨S8x256, .f32⟩
  | .hbm, ⟨109, _⟩ => ⟨S_, .f32⟩
  | .hbm, ⟨110, _⟩ => ⟨S8x256, .f32⟩
  | .hbm, ⟨111, _⟩ => ⟨S8x256, .f32⟩
  | .hbm, ⟨112, _⟩ => ⟨S8x256x1x1, .f32⟩
  | .hbm, ⟨113, _⟩ => ⟨S8x256x128x128, .f32⟩
  | .hbm, ⟨114, _⟩ => ⟨S8x256x128x128, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_9 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_10 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_call0_cst : Ref sig .tc := ⟨.hbm, 96, rfl⟩
abbrev main_call0_v0 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_15 : Ref sig .tc := ⟨.hbm, 106, rfl⟩
abbrev main_v82 : Ref sig .tc := ⟨.hbm, 107, rfl⟩
abbrev main_v83 : Ref sig .tc := ⟨.hbm, 108, rfl⟩
abbrev main_cst_16 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]

class Facts₀ : Prop where
  shapeCasts_S8x256x128x128_S8x256x16384 : S8x256x128x128.ShapeCasts S8x256x16384
  reducesTo_S8x256x16384_S8x256_d2 : S8x256x16384.ReducesTo [2] S8x256
  h_S_ : 0 < S_.numel
  bcast_S8x256_S8x256x1_0_1 : S8x256.BroadcastsInDim S8x256x1 (![0, 1] : Fin 2 → Fin S8x256x1.rank)
  bcast_S_S8x256x1 : S_.BroadcastsInDim S8x256x1 (![] : Fin 0 → Fin S8x256x1.rank)
  bcast_S8x256x1_S8x256x16384_0_1_2 : S8x256x1.BroadcastsInDim S8x256x16384 (![0, 1, 2] : Fin 3 → Fin S8x256x16384.rank)
  bcast_S_S8x256x256 : S_.BroadcastsInDim S8x256x256 (![] : Fin 0 → Fin S8x256x256.rank)
  reducesTo_S8x256x256_S8_d1_2 : S8x256x256.ReducesTo [1, 2] S8
  bcast_S8_S8x1x1_0 : S8.BroadcastsInDim S8x1x1 (![0] : Fin 1 → Fin S8x1x1.rank)
  bcast_S8x1x1_S8x256x256_0_1_2 : S8x1x1.BroadcastsInDim S8x256x256 (![0, 1, 2] : Fin 3 → Fin S8x256x256.rank)
  bcast_S_S256x256 : S_.BroadcastsInDim S256x256 (![] : Fin 0 → Fin S256x256.rank)
  bcast_S256x256_S8x256x256_1_2 : S256x256.BroadcastsInDim S8x256x256 (![1, 2] : Fin 2 → Fin S8x256x256.rank)
  reducesTo_S8x256x256_S8x256_d2 : S8x256x256.ReducesTo [2] S8x256
  bcast_S_S8x256 : S_.BroadcastsInDim S8x256 (![] : Fin 0 → Fin S8x256.rank)
  transposes_S32x256_S256x32_1_0 : S32x256.Transposes [1, 0] S256x32
  bcast_S32_S1x32_1 : S32.BroadcastsInDim S1x32 (![1] : Fin 1 → Fin S1x32.rank)
  bcast_S1x32_S8x32_0_1 : S1x32.BroadcastsInDim S8x32 (![0, 1] : Fin 2 → Fin S8x32.rank)
  bcast_S_S8x32 : S_.BroadcastsInDim S8x32 (![] : Fin 0 → Fin S8x32.rank)
  transposes_S256x32_S32x256_1_0 : S256x32.Transposes [1, 0] S32x256
  bcast_S256_S1x256_1 : S256.BroadcastsInDim S1x256 (![1] : Fin 1 → Fin S1x256.rank)
  bcast_S1x256_S8x256_0_1 : S1x256.BroadcastsInDim S8x256 (![0, 1] : Fin 2 → Fin S8x256.rank)
  bcast_S8x256_S8x256x1x1_0_1 : S8x256.BroadcastsInDim S8x256x1x1 (![0, 1] : Fin 2 → Fin S8x256x1x1.rank)
  bcast_S8x256x1x1_S8x256x128x128_0_1_2_3 : S8x256x1x1.BroadcastsInDim S8x256x128x128 (![0, 1, 2, 3] : Fin 4 → Fin S8x256x128x128.rank)
  dot_S8x256x16384_S8x256x16384_S8x256x256_2_2_1_1_0_0_wf : DotDims.WF S8x256x16384 S8x256x16384 S8x256x256 [2] [2] [1] [1] [0] [0]
  dot_S8x256x256_S8x256x256_S8x256x256_2_1_1_2_0_0_wf : DotDims.WF S8x256x256 S8x256x256 S8x256x256 [2] [1] [1] [2] [0] [0]
  dot_S8x256_S256x32_S8x32_1_0_0_1_n_n_wf : DotDims.WF S8x256 S256x32 S8x32 [1] [0] [0] [1] [] []
  dot_S8x32_S32x256_S8x256_1_0_0_1_n_n_wf : DotDims.WF S8x32 S32x256 S8x256 [1] [0] [0] [1] [] []

variable [Facts₀]

def dot_S8x256x16384_S8x256x16384_S8x256x256_2_2_1_1_0_0 : DotDims S8x256x16384 S8x256x16384 S8x256x256 where
  lhsContracting := [2]
  rhsContracting := [2]
  lhsNonContracting := [1]
  rhsNonContracting := [1]
  lhsBatch := [0]
  rhsBatch := [0]
  wf := dot_S8x256x16384_S8x256x16384_S8x256x256_2_2_1_1_0_0_wf
def dot_S8x256x256_S8x256x256_S8x256x256_2_1_1_2_0_0 : DotDims S8x256x256 S8x256x256 S8x256x256 where
  lhsContracting := [2]
  rhsContracting := [1]
  lhsNonContracting := [1]
  rhsNonContracting := [2]
  lhsBatch := [0]
  rhsBatch := [0]
  wf := dot_S8x256x256_S8x256x256_S8x256x256_2_1_1_2_0_0_wf
def dot_S8x256_S256x32_S8x32_1_0_0_1_n_n : DotDims S8x256 S256x32 S8x32 where
  lhsContracting := [1]
  rhsContracting := [0]
  lhsNonContracting := [0]
  rhsNonContracting := [1]
  lhsBatch := []
  rhsBatch := []
  wf := dot_S8x256_S256x32_S8x32_1_0_0_1_n_n_wf
def dot_S8x32_S32x256_S8x256_1_0_0_1_n_n : DotDims S8x32 S32x256 S8x256 where
  lhsContracting := [1]
  rhsContracting := [0]
  lhsNonContracting := [0]
  rhsNonContracting := [1]
  lhsBatch := []
  rhsBatch := []
  wf := dot_S8x32_S32x256_S8x256_1_0_0_1_n_n_wf

class Facts : Prop extends Facts₀ where

variable [Facts]
-- ==== Proof.RefRes.lean ====
/-
  The reference program's result, read one operation at a time: the fold of its 110 host operations over the
  launch memory, at the result buffer, is the last stage of the staged reading (each stage a function of the
  argument arrays, shared stages named once).
-/
import proofs.«123247_j31610959298823_2_alg».proof.Proof.RefRunP
import proofs.«123247_j31610959298823_2_alg».proof.Proof.RefReadP

set_option maxRecDepth 8192

noncomputable section

namespace Cert.ReferenceIdeal.RefRes

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxHeartbeats 4000000 in
/-- The result buffer after the run holds the last stage, x · broadcast(gate), of the launch contents of the arguments. -/
theorem res_eq (m : (ℓ : Loc nD τ sig) → Buf (Elt F) ℓ) (c : Dev nD) :
    res_main_v88 m c = val_main_v88 (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold res_main_v88
  after_results_simp
  rfl

end Cert.ReferenceIdeal.RefRes

end
-- ==== Proof.Spec.lean ====
/-
  The mathematics both programs compute, stated once over plain indices.

  From the activations X[b, c, m] (8 batches, 256 channels, 16384 positions) each batch gets a 256 × 256
  covariance matrix; the matrix is normalised by its Frobenius norm, five coupled Newton–Schulz steps
  (T = ½(3I − ZY), Y ← YT, Z ← TZ, from Y₀ = A/‖A‖, Z₀ = I) approximate its inverse square root, and the
  row means of Z₅/√‖A‖ are the per-channel statistic y[b, c] the gate is computed from.

  The two programs differ in how they reach the covariance: one subtracts the channel means before the
  product (`covR`), the other forms the raw second moment and subtracts the product of the means (`covK`).
  On finite entries these agree (`Cert.CovLaw`, a separate module). Everything after the covariance is the
  same arithmetic on both sides, named here so that each side is identified with it separately.
-/
import Idealize.ShloMosaic.PureOps.Ideal
import Idealize.ShloMosaic.Lib.ValueIdx

noncomputable section

open scoped BigOperators

namespace Cert.Spec

open Idealize.ShloMosaic Idealize.ShloMosaic.ValueIdx

/-- A 256 × 256 matrix of extended reals, by row and column. -/
abbrev Mat := Fin 256 → Fin 256 → EReal

/-- The float constants of the computation, as the extended reals their words denote: 3, ½, 16384 and 256. -/
def c3 : EReal := Ideal.ofBits .f32 0x40400000#32
def ch : EReal := Ideal.ofBits .f32 0x3F000000#32
def cM : EReal := Ideal.ofBits .f32 0x46800000#32
def cC : EReal := Ideal.ofBits .f32 0x43800000#32

/-- The identity matrix. -/
def eye : Mat := fun i j => if i = j then 1 else 0

/-- The matrix product. -/
def mm (P Q : Mat) : Mat := fun i j => ∑ k : Fin 256, P i k * Q k j

/-- The Newton–Schulz correction T = ½ (3 I − Z Y). -/
def tOf (Y Z : Mat) : Mat := fun i j => ch * (c3 * eye i j - mm Z Y i j)

/-- One step on the pair: Y ← Y T and Z ← T Z, with T from the pair before the step. -/
def stepY (Y Z : Mat) : Mat := mm Y (tOf Y Z)
def stepZ (Y Z : Mat) : Mat := mm (tOf Y Z) Z

/-- The pair (Yₙ, Zₙ) after n steps from (Y₀, I). -/
def iter : ℕ → Mat → Mat × Mat
  | 0, Y => (Y, eye)
  | n + 1, Y => (stepY (iter n Y).1 (iter n Y).2, stepZ (iter n Y).1 (iter n Y).2)

/-- The Frobenius norm: the square root of the sum of the squared entries, rows first. -/
def frob (A : Mat) : EReal := Ideal.sqrt (∑ i : Fin 256, ∑ j : Fin 256, A i j * A i j)

/-- The normalised matrix Y₀ = A / ‖A‖. -/
def y0 (A : Mat) : Mat := fun i j => Ideal.div (A i j) (frob A)

/-- Z₅: the fifth step's Z (its Y is never used). -/
def z5 (A : Mat) : Mat := stepZ (iter 4 (y0 A)).1 (iter 4 (y0 A)).2

/-- The channel statistic: the row means of Z₅ / √‖A‖. -/
def nsY (A : Mat) : Fin 256 → EReal := fun i =>
  Ideal.div (∑ j : Fin 256, Ideal.div (z5 A i j) (Ideal.sqrt (frob A))) cC

/-- The covariance from the raw second moment R and the channel sums s over the 16384 positions:
    R/M − (s/M)(s/M)ᵀ. -/
def aOf (R : Mat) (s : Fin 256 → EReal) : Mat := fun c d =>
  Ideal.div (R c d) cM - Ideal.div (s c) cM * Ideal.div (s d) cM

/-- The activations as a rank-3 array. -/
abbrev Act := (⟨3, ![8, 256, 16384]⟩ : Shape).Idx → EReal

/-- A channel's sum over the positions. -/
def chanSum (X : Act) (b : Fin 8) : Fin 256 → EReal := fun c => ∑ m : Fin 16384, X (ix3 b c m)

/-- The raw second moment of two channels. -/
def rawMoment (X : Act) (b : Fin 8) : Mat := fun c d => ∑ m : Fin 16384, X (ix3 b c m) * X (ix3 b d m)

/-- The covariance as the product of the means subtracted from the raw second moment. -/
def covK (X : Act) (b : Fin 8) : Mat := aOf (rawMoment X b) (chanSum X b)

/-- The covariance as the second moment of the centred channels. -/
def covR (X : Act) (b : Fin 8) : Mat := fun c d =>
  Ideal.div (∑ m : Fin 16384, (X (ix3 b c m) - Ideal.div (chanSum X b c) cM) * (X (ix3 b d m) - Ideal.div (chanSum X b d) cM)) cM

/-- The gate's values as a rank-3 array with a unit last axis. -/
abbrev Gate := (⟨3, ![8, 256, 1]⟩ : Shape).Idx → EReal

/-- The gated activations: every position of a channel multiplied by the channel's gate. -/
def gated (X : Act) (G : Gate) : Act := fun i => X i * G (ix3 (i 0) (i 1) 0)

end Cert.Spec

end
-- ==== Proof.KRun.lean ====
/-
  The kernel program's run with its result named. Every weakly fair execution of the three-region program
  terminates without a fault; its argument arrays end as launched, and its result array ends holding the last
  boundary's contents at the result buffer: the fold of the host stretches and of the three regions' write-backs
  over the launch memory. The later modules read that fold back as a function of the arguments.
-/
import proofs.«123247_j31610959298823_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the five argument arrays unchanged. -/
theorem run_named : θ_run defs (onTc (τ := τ) (main (F := F))) ⟨m, fun _ => 0, ρ⟩ (fun r => ∀ c : Dev nD,
      r.2.mem ((c.tc : Thread nD τ).loc main_v23) = W8 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v23 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c)⟩)

end Cert.KernelIdeal.KRun

end
-- ==== Proof.KGate.lean ====
/-
  The gate, as the host computes it from the channel statistic: g = 1 / (1 + exp (−(relu (y·w1ᵀ + b1)·w2ᵀ + b2))),
  for y an [8, 256] array, w1 : [32, 256], b1 : [32], w2 : [256, 32], b2 : [256]. Both programs apply exactly these
  host operations, so the composition is named once, over variable operands, and never opened: the two sides meet
  by feeding it the same statistic.
-/
import proofs.«123247_j31610959298823_2_alg».proof.KernelIdeal

noncomputable section

namespace Cert.KernelIdeal.KGate

open Cert.KernelIdeal Cert.KernelIdeal.Facts₀ Cert.KernelIdeal.Facts Idealize.ShloMosaic

variable {F : FTy → Type} [FloatOps F] [Cert.KernelIdeal.Facts]

/-- The two dense layers and the sigmoid, on an [8, 256] statistic. -/
def gate2 (y : FVec F S8x256 .f32) (w1 : FVec F S32x256 .f32) (b1 : FVec F S32 .f32) (w2 : FVec F S256x32 .f32) (b2 : FVec F S256 .f32) :
    FVec F S8x256 .f32 :=
  Host.divf (broadcastInDim S8x256 ![] bcast_S_S8x256 (constant S_ .f32 0x3F800000#32))
    (addf (broadcastInDim S8x256 ![] bcast_S_S8x256 (constant S_ .f32 0x3F800000#32))
      (Host.exp (Host.negf (addf
        (Host.dotGeneral dot_S8x32_S32x256_S8x256_1_0_0_1_n_n none
          (maximumf
            (addf (Host.dotGeneral dot_S8x256_S256x32_S8x32_1_0_0_1_n_n none y (transpose S256x32 [1, 0] w1 transposes_S32x256_S256x32_1_0))
              (broadcastInDim S8x32 ![0, 1] bcast_S1x32_S8x32_0_1 (broadcastInDim S1x32 ![1] bcast_S32_S1x32_1 b1)))
            (broadcastInDim S8x32 ![] bcast_S_S8x32 (constant S_ .f32 0x00000000#32)))
          (transpose S32x256 [1, 0] w2 transposes_S256x32_S32x256_1_0))
        (broadcastInDim S8x256 ![0, 1] bcast_S1x256_S8x256_0_1 (broadcastInDim S1x256 ![1] bcast_S256_S1x256_1 b2))))))

/-- The same on the statistic as region 1 leaves it, [8, 256, 1], giving the gate as region 2 reads it, [8, 256, 1]. -/
def gate3 (y3 : FVec F S8x256x1 .f32) (w1 : FVec F S32x256 .f32) (b1 : FVec F S32 .f32) (w2 : FVec F S256x32 .f32) (b2 : FVec F S256 .f32) :
    FVec F S8x256x1 .f32 :=
  shapeCast S8x256x1 (gate2 (shapeCast S8x256 y3 shapeCasts_S8x256x1_S8x256) w1 b1 w2 b2) shapeCasts_S8x256_S8x256x1

end Cert.KernelIdeal.KGate

end
-- ==== Proof.LibTileSum.lean ====
/-
  Sums cut into tiles, and an accumulator that adds one tile per step.
  A sum over the B * R numbers 0, …, B * R - 1 is the sum over the B tiles b of the sums inside each tile, whose
  members are the numbers b * R + r with r below R. An accumulator that holds z plus the first tile's sum after the
  first step, and adds one more tile's sum at each later step, holds z plus the sum of the tiles so far. Only the
  commutativity and associativity of addition are used, so everything is stated over a commutative additive monoid.
-/
import Mathlib.Algebra.BigOperators.Fin
import Mathlib.Data.Fintype.BigOperators
import Mathlib.Logic.Equiv.Fin.Basic

open scoped BigOperators

namespace Cert.LibTileSum

/-- Member r of tile b lies below B * R. -/
theorem tile_lt {B R : ℕ} (b : Fin B) (r : Fin R) : b.val * R + r.val < B * R :=
  calc b.val * R + r.val < b.val * R + R := Nat.add_lt_add_left r.isLt _
    _ = (b.val + 1) * R := (Nat.succ_mul _ _).symm
    _ ≤ B * R := Nat.mul_le_mul_right R b.isLt

/-- A sum over B * R terms is the sum over the B tiles of the sums inside each tile. -/
theorem sum_tiles {α : Type*} [AddCommMonoid α] (B R : ℕ) (f : Fin (B * R) → α) :
    ∑ n : Fin (B * R), f n = ∑ b : Fin B, ∑ r : Fin R, f ⟨b.val * R + r.val, tile_lt b r⟩ := by
  rw [← Equiv.sum_comp finProdFinEquiv f, Fintype.sum_prod_type]
  refine Finset.sum_congr rfl fun b _ => Finset.sum_congr rfl fun r _ => congrArg f (Fin.ext ?_)
  show r.val + R * b.val = b.val * R + r.val
  rw [Nat.mul_comm, Nat.add_comm]

/-- 4096 terms as 8 tiles of 512. -/
theorem sum_4096_8x512 {α : Type*} [AddCommMonoid α] (f : Fin 4096 → α) :
    ∑ n : Fin 4096, f n = ∑ b : Fin 8, ∑ r : Fin 512, f ⟨b.val * 512 + r.val, by omega⟩ :=
  sum_tiles 8 512 f

/-- 4096 terms as 4 tiles of 1024. -/
theorem sum_4096_4x1024 {α : Type*} [AddCommMonoid α] (f : Fin 4096 → α) :
    ∑ n : Fin 4096, f n = ∑ b : Fin 4, ∑ r : Fin 1024, f ⟨b.val * 1024 + r.val, by omega⟩ :=
  sum_tiles 4 1024 f

/-- An accumulator that is z plus the first term after step 0, and adds one term at each later step, is z plus the
    sum of the terms so far. -/
theorem acc_eq {α : Type*} [AddCommMonoid α] (z : α) (g : ℕ → α) (a : ℕ → α) (h0 : a 0 = z + g 0)
    (hs : ∀ n, a (n + 1) = a n + g (n + 1)) (n : ℕ) : a n = z + ∑ i ∈ Finset.range (n + 1), g i := by
  induction n with
  | zero => rw [h0, Finset.sum_range_one]
  | succ n ih => rw [hs, ih, Finset.sum_range_succ g (n + 1), add_assoc]

/-- A sum over the numbers below B, written over Fin B or over the range. -/
theorem sum_fin_eq_range {α : Type*} [AddCommMonoid α] (B : ℕ) (g : ℕ → α) :
    ∑ b : Fin B, g b.val = ∑ i ∈ Finset.range B, g i :=
  Fin.sum_univ_eq_sum_range g B

end Cert.LibTileSum
-- ==== Proof.CovRegion.lean ====
/-
  Region 0's two result arrays as whole-array functions of the region's input array.

  The input X[b, c, m] (8 batches, 256 channels, 16384 positions) is visited on a grid of 8 × 4 points: point t
  sees batch t / 4 and the tile of 4096 positions number t % 4. Two blocks are carried over the four points of a
  batch: the channel sums s[c] and the raw second moment R[c, d]. At a batch's first tile they are reset to zero
  and the tile's contribution is added; at the later tiles the contribution is added to what the point before
  left; after the batch's last tile they are written back to the result arrays.

  The tile's contribution is, for the sums, the sum of a channel over the tile's positions, and for the moment the
  sum over the tile's positions of the product of two channels (a product of the tile with its own transpose; the
  narrowing of the operands changes nothing over the extended reals). So after point t the carried blocks hold
  the sum of tiles 0 … t % 4 of batch t / 4 (by induction on the point), the last point of a batch holds all four
  tiles, and four tiles of 4096 positions are the 16384 positions: what is written back is the batch's channel
  sums and raw second moment. Only the commutativity and associativity of addition and 0 + x = x are used.
-/
import proofs.«123247_j31610959298823_2_alg».proof.Proof.Gen.KernelIdeal.Frame
import proofs.«123247_j31610959298823_2_alg».proof.Proof.Spec
import proofs.«123247_j31610959298823_2_alg».proof.Proof.LibTileSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators
open Idealize.ShloMosaic Idealize.ShloMosaic.TcCoe Idealize.SL.Sem
open Idealize.ShloMosaic.Pipeline (Dat)

namespace Cert.KernelIdeal.CovRegion

open Cert.KernelIdeal Cert.KernelIdeal.Gen Idealize.ShloMosaic Idealize.ShloMosaic.ValueIdx

section Pieces
variable {F : FTy → Type} [FloatOps F]

theorem hz3 : (![0, 0, 0] : Fin 3 → Nat) = fun _ => 0 := funext fun a => by fin_cases a <;> rfl

/-- Away from a batch's first tile the moment block is the carried block plus the tile's product. -/
theorem out_B_1 (c : Dev nD) (i : grid0.Coords) (a2 : Memref sig .tc .vmem S1x256x4096 .f32) (h2 : a2.IsWhole)
    (a3 : Memref sig .tc .vmem S1x256x256 .f32) (h3 : a3.IsWhole) (a4 : Memref sig .tc .vmem S1x256x1 .f32) (h4 : a4.IsWhole)
    (hc : ¬cond0_0 i) (x : Vec F S1x256x4096 .f32) (xo1 : Vec F S1x256x256 .f32) (xo2 : Vec F S1x256x1 .f32) :
    out0_B_1 c i a2 h2 a3 h3 a4 h4 hc x xo1 xo2 = k0_pay5 x xo1 := by
  unfold out0_B_1
  rw [View.read_writes_eq_canon _ _ _ (cover0_B_1 c i a2 h2 a3 h3 a4 h4 hc x xo1 xo2)]
  unfold kernelRun0_B
  dsimp only
  rw [View.canon_unit_zero hz3]
  simp only [View.readAt_eq_ld, h2.read_unread, h3.read_unread, View.ld_unit_zero (S := S1x256x4096) hz3,
    View.ld_unit_zero (S := S1x256x256) hz3]

/-- Away from a batch's first tile the sum block is the carried block plus the tile's row sums. -/
theorem out_B_2 (c : Dev nD) (i : grid0.Coords) (a2 : Memref sig .tc .vmem S1x256x4096 .f32) (h2 : a2.IsWhole)
    (a3 : Memref sig .tc .vmem S1x256x256 .f32) (h3 : a3.IsWhole) (a4 : Memref sig .tc .vmem S1x256x1 .f32) (h4 : a4.IsWhole)
    (hc : ¬cond0_0 i) (x : Vec F S1x256x4096 .f32) (xo1 : Vec F S1x256x256 .f32) (xo2 : Vec F S1x256x1 .f32) :
    out0_B_2 c i a2 h2 a3 h3 a4 h4 hc x xo1 xo2 = k0_pay4 x xo2 := by
  unfold out0_B_2
  rw [View.read_writes_eq_canon _ _ _ (cover0_B_2 c i a2 h2 a3 h3 a4 h4 hc x xo1 xo2)]
  unfold kernelRun0_B
  dsimp only
  rw [View.canon_unit_zero hz3]
  simp only [View.readAt_eq_ld, h2.read_unread, h4.read_unread, View.ld_unit_zero (S := S1x256x4096) hz3,
    View.ld_unit_zero (S := S1x256x1) hz3]

/-- At a batch's first tile the moment block is the zero block plus the tile's product. -/
theorem out_A_1 (c : Dev nD) (i : grid0.Coords) (a2 : Memref sig .tc .vmem S1x256x4096 .f32) (h2 : a2.IsWhole)
    (a3 : Memref sig .tc .vmem S1x256x256 .f32) (h3 : a3.IsWhole) (a4 : Memref sig .tc .vmem S1x256x1 .f32) (h4 : a4.IsWhole)
    (hc : cond0_0 i) (x : Vec F S1x256x4096 .f32) :
    out0_A_1 c i a2 h2 a3 h3 a4 h4 hc x = k0_pay5 x (k0_pay1 (F := F)) := by
  unfold out0_A_1
  rw [View.read_writes_eq_canon _ _ _ (cover0_A_1 c i a2 h2 a3 h3 a4 h4 hc x)]
  unfold kernelRun0_A
  dsimp only
  sl_unfold_words
  rw [View.canon_cons_unit_zero (S := S1x256x256) hz3, View.readCov_unit_zero (S := S1x256x256) _ hz3]
  simp only [View.readAt_eq_ld, h2.read_unread, View.ld_unit_zero (S := S1x256x4096) hz3]

/-- At a batch's first tile the sum block is the zero block plus the tile's row sums. -/
theorem out_A_2 (c : Dev nD) (i : grid0.Coords) (a2 : Memref sig .tc .vmem S1x256x4096 .f32) (h2 : a2.IsWhole)
    (a3 : Memref sig .tc .vmem S1x256x256 .f32) (h3 : a3.IsWhole) (a4 : Memref sig .tc .vmem S1x256x1 .f32) (h4 : a4.IsWhole)
    (hc : cond0_0 i) (x : Vec F S1x256x4096 .f32) :
    out0_A_2 c i a2 h2 a3 h3 a4 h4 hc x = k0_pay4 x (k0_pay2 (F := F)) := by
  unfold out0_A_2
  rw [View.read_writes_eq_canon _ _ _ (cover0_A_2 c i a2 h2 a3 h3 a4 h4 hc x)]
  unfold kernelRun0_A
  dsimp only
  sl_unfold_words
  rw [View.canon_cons_unit_zero (S := S1x256x1) hz3, View.readCov_unit_zero (S := S1x256x1) _ hz3]
  simp only [View.readAt_eq_ld, h2.read_unread, View.ld_unit_zero (S := S1x256x4096) hz3]

end Pieces

section AtIdeal

/-- The tile product's left operand index: row of the output, contraction coordinate. -/
theorem lhsD_0 (j : S256x256.Idx) (q : dot_S256x4096_S4096x256_S256x256_1_0_0_1_n_n.contr.Idx) :
    (dot_S256x4096_S4096x256_S256x256_1_0_0_1_n_n.lhsIdx j q 0).val = (j 0).val := by
  unfold DotDims.lhsIdx
  rw [dif_neg (show ¬(0 : Fin S256x4096.rank) ∈ dot_S256x4096_S4096x256_S256x256_1_0_0_1_n_n.lhsBatch by decide),
    dif_pos (show (0 : Fin S256x4096.rank) ∈ dot_S256x4096_S4096x256_S256x256_1_0_0_1_n_n.lhsNonContracting by decide)]
  rfl
theorem lhsD_1 (j : S256x256.Idx) (q : dot_S256x4096_S4096x256_S256x256_1_0_0_1_n_n.contr.Idx) :
    (dot_S256x4096_S4096x256_S256x256_1_0_0_1_n_n.lhsIdx j q 1).val = (q ⟨0, by decide⟩).val :=
  dot_S256x4096_S4096x256_S256x256_1_0_0_1_n_n.lhsIdx_val_of_single rfl j q
/-- The right operand index: contraction coordinate, column of the output. -/
theorem rhsD_0 (j : S256x256.Idx) (q : dot_S256x4096_S4096x256_S256x256_1_0_0_1_n_n.contr.Idx) :
    (dot_S256x4096_S4096x256_S256x256_1_0_0_1_n_n.rhsIdx j q 0).val = (q ⟨0, by decide⟩).val :=
  dot_S256x4096_S4096x256_S256x256_1_0_0_1_n_n.rhsIdx_val_of_single rfl j q
theorem rhsD_1 (j : S256x256.Idx) (q : dot_S256x4096_S4096x256_S256x256_1_0_0_1_n_n.contr.Idx) :
    (dot_S256x4096_S4096x256_S256x256_1_0_0_1_n_n.rhsIdx j q 1).val = (j 1).val := by
  unfold DotDims.rhsIdx
  rw [dif_neg (show ¬(1 : Fin S4096x256.rank) ∈ dot_S256x4096_S4096x256_S256x256_1_0_0_1_n_n.rhsBatch by decide),
    dif_pos (show (1 : Fin S4096x256.rank) ∈ dot_S256x4096_S4096x256_S256x256_1_0_0_1_n_n.rhsNonContracting by decide)]
  rfl

/-- The moment payload at an entry: the carried entry plus the sum over the tile's positions of the two channels' product. -/
theorem pay5_apply (x : Vec Ideal S1x256x4096 .f32) (acc : Vec Ideal S1x256x256 .f32) (u : Fin 1) (p q : Fin 256) :
    k0_pay5 (F := Ideal) x acc (ix3 u p q)
      = acc (ix3 (0 : Fin 1) p q) + ∑ k : Fin 4096, x (ix3 (0 : Fin 1) p k) * x (ix3 (0 : Fin 1) q k) := by
  unfold k0_pay5 k0_pay3
  refine (shapeCast_ab_1ab_apply _ _ u p q).trans ?_
  refine (addf_apply _ _ _).trans ?_
  refine congrArg₂ (· + ·) (shapeCast_1ab_ab_apply _ _ p q) ?_
  refine (Ideal.matmul_constant_zero_apply dot_S256x4096_S4096x256_S256x256_1_0_0_1_n_n none _ _ (ix2 p q)).trans ?_
  refine (Equiv.sum_comp (contrEquiv1 dot_S256x4096_S4096x256_S256x256_1_0_0_1_n_n 4096 rfl rfl).symm _).symm.trans ?_
  refine Finset.sum_congr rfl fun k _ => ?_
  have hk := contrEquiv1_symm_val dot_S256x4096_S4096x256_S256x256_1_0_0_1_n_n 4096 rfl rfl k
  have el : dot_S256x4096_S4096x256_S256x256_1_0_0_1_n_n.lhsIdx (ix2 p q) ((contrEquiv1 dot_S256x4096_S4096x256_S256x256_1_0_0_1_n_n 4096 rfl rfl).symm k) = ix2 p k :=
    funext fun a => Fin.ext (by
      match a with
      | ⟨0, _⟩ => exact lhsD_0 _ _
      | ⟨1, _⟩ => exact (lhsD_1 _ _).trans hk)
  have er : dot_S256x4096_S4096x256_S256x256_1_0_0_1_n_n.rhsIdx (ix2 p q) ((contrEquiv1 dot_S256x4096_S4096x256_S256x256_1_0_0_1_n_n 4096 rfl rfl).symm k) = ix2 k q :=
    funext fun a => Fin.ext (by
      match a with
      | ⟨0, _⟩ => exact (rhsD_0 _ _).trans hk
      | ⟨1, _⟩ => exact rhsD_1 _ _)
  rw [el, er]
  refine congrArg₂ (· * ·) ?_ ?_
  · exact shapeCast_1ab_ab_apply _ _ p k
  · exact (transpose_ix2_apply _ _ k q).trans (shapeCast_1ab_ab_apply _ _ q k)

/-- The sum payload at a channel: the carried entry plus the sum of the channel over the tile's positions. -/
theorem pay4_apply (x : Vec Ideal S1x256x4096 .f32) (acc : Vec Ideal S1x256x1 .f32) (u : Fin 1) (p : Fin 256) (z : Fin 1) :
    k0_pay4 (F := Ideal) x acc (ix3 u p z)
      = acc (ix3 (0 : Fin 1) p (0 : Fin 1)) + ∑ k : Fin 4096, x (ix3 (0 : Fin 1) p k) := by
  obtain rfl : z = 0 := Subsingleton.elim _ _
  unfold k0_pay4 k0_pay3
  refine (shapeCast_ab_1ab_apply _ _ u p 0).trans ?_
  refine (addf_apply _ _ _).trans ?_
  refine congrArg₂ (· + ·) (shapeCast_1ab_ab_apply _ _ p 0) ?_
  refine (shapeCast_apply _ _ (ix2 p (0 : Fin 1)) (ix1 p) (by
    rw [Shape.rowMajor_val_one, Shape.rowMajor_val_two]
    show p.val = p.val * 1 + 0
    omega)).trans ?_
  refine (Ideal.multiReduction_add_single _ _ _ _ _ (ix1 p)).trans ?_
  show ∑ k : Fin 4096, _ = _
  refine Finset.sum_congr rfl fun k _ => ?_
  have e : (reduces_S256x4096_S256).lift (ix1 p) k = ix2 p k :=
    funext fun a => Fin.ext (by
      match a with
      | ⟨0, _⟩ => rfl
      | ⟨1, _⟩ => rfl)
  rw [e]
  exact shapeCast_1ab_ab_apply _ _ p k

end AtIdeal

section Blocks
variable {F : FTy → Type} [FloatOps F]
variable (V : (c : Dev nD) → (b : Ref sig .tc) → Buf (Elt F) ((c : Thread nD τ).loc b))

/-- The input window's block index at a grid point: batch t / 4, position tile t % 4. -/
theorem idx0_0 : ∀ t : Fin cfg0.N, win0_0.index t 0 = t.val / 4 ∧ win0_0.index t 1 = 0 ∧ win0_0.index t 2 = t.val % 4 :=
  (by decide +kernel : ∀ t : Fin grid0.N, win0_0.index t 0 = t.val / 4 ∧ win0_0.index t 1 = 0 ∧ win0_0.index t 2 = t.val % 4)

theorem lt8 (t : Fin cfg0.N) : t.val / 4 < 8 := by
  have := lt_of_lt_of_eq t.isLt (show cfg0.N = 32 from N_0); omega

theorem lt16384 (t : Fin cfg0.N) (k : Fin 4096) : (t.val % 4) * 4096 + k.val < 16384 := by
  have := k.isLt; omega

/-- The input block at a point, read at an entry: the activations of batch t / 4 at position (t % 4) · 4096 + k. -/
theorem iblk_apply (c : Dev nD) (t : Fin cfg0.N) (u : Fin 1) (p : Fin 256) (k : Fin 4096) :
    iblk0 V c 0 t (ix3 u p k)
      = V c main_v0 (ix3 (⟨t.val / 4, lt8 t⟩ : Fin 8) p (⟨(t.val % 4) * 4096 + k.val, lt16384 t k⟩ : Fin 16384)) := by
  obtain ⟨h0, h1, h2⟩ := idx0_0 t
  unfold iblk0
  rw [View.read_apply]
  show V c main_v0 _ = V c main_v0 _
  congr 1
  funext a
  apply Fin.ext
  match a with
  | ⟨0, _⟩ =>
    show win0_0.index t 0 * 1 + 1 * u.val = t.val / 4
    rw [h0]; omega
  | ⟨1, _⟩ =>
    show win0_0.index t 1 * 256 + 1 * p.val = p.val
    rw [h1]; omega
  | ⟨2, _⟩ =>
    show win0_0.index t 2 * 4096 + 1 * k.val = (t.val % 4) * 4096 + k.val
    rw [h2]; omega

end Blocks

section Region
variable (V : (c : Dev nD) → (b : Ref sig .tc) → Buf (Elt Ideal) ((c : Thread nD τ).loc b))

/-- Tile i of batch b's raw second moment: the two channels' product summed over positions i · 4096 … i · 4096 + 4095
    (zero outside the eight batches and four tiles). -/
def tileM (X : Cert.Spec.Act) (b : ℕ) (p q : Fin 256) (i : ℕ) : EReal :=
  if h : b < 8 ∧ i < 4 then
    ∑ k : Fin 4096, X (ix3 (⟨b, h.1⟩ : Fin 8) p (⟨i * 4096 + k.val, by have := k.isLt; omega⟩ : Fin 16384))
      * X (ix3 (⟨b, h.1⟩ : Fin 8) q (⟨i * 4096 + k.val, by have := k.isLt; omega⟩ : Fin 16384))
  else 0

/-- Tile i of batch b's channel sum. -/
def tileS (X : Cert.Spec.Act) (b : ℕ) (p : Fin 256) (i : ℕ) : EReal :=
  if h : b < 8 ∧ i < 4 then
    ∑ k : Fin 4096, X (ix3 (⟨b, h.1⟩ : Fin 8) p (⟨i * 4096 + k.val, by have := k.isLt; omega⟩ : Fin 16384))
  else 0

/-- The zero block a batch's first tile stores into the moment accumulator. -/
theorem pay1_apply (u : Fin 1) (p q : Fin 256) : k0_pay1 (F := Ideal) (ix3 u p q) = 0 := by
  unfold k0_pay1
  refine (shapeCast_ab_1ab_apply _ _ u p q).trans ?_
  exact Ideal.ofBits_zero_f32

/-- The zero block it stores into the sum accumulator. -/
theorem pay2_apply (u : Fin 1) (p : Fin 256) (z : Fin 1) : k0_pay2 (F := Ideal) (ix3 u p z) = 0 := by
  unfold k0_pay2
  refine (shapeCast_ab_1ab_apply _ _ u p z).trans ?_
  exact Ideal.ofBits_zero_f32

/-- The input block at a point, as a vector of the block's literal shape. -/
abbrev xblk (c : Dev nD) (t : Fin cfg0.N) : Vec Ideal S1x256x4096 .f32 := iblk0 V c 0 t

/-- The product summed over the block at point t is tile t % 4 of batch t / 4. -/
theorem blockM (c : Dev nD) (t : Fin cfg0.N) (p q : Fin 256) :
    ∑ k : Fin 4096, xblk V c t (ix3 (0 : Fin 1) p k) * xblk V c t (ix3 (0 : Fin 1) q k)
      = tileM (V c main_v0) (t.val / 4) p q (t.val % 4) := by
  unfold tileM
  rw [dif_pos ⟨lt8 t, Nat.mod_lt _ (by decide)⟩]
  refine Finset.sum_congr rfl fun k _ => ?_
  exact congrArg₂ (· * ·) (iblk_apply V c t 0 p k) (iblk_apply V c t 0 q k)

theorem blockS (c : Dev nD) (t : Fin cfg0.N) (p : Fin 256) :
    ∑ k : Fin 4096, xblk V c t (ix3 (0 : Fin 1) p k) = tileS (V c main_v0) (t.val / 4) p (t.val % 4) := by
  unfold tileS
  rw [dif_pos ⟨lt8 t, Nat.mod_lt _ (by decide)⟩]
  refine Finset.sum_congr rfl fun k _ => ?_
  exact iblk_apply V c t 0 p k

theorem pay5_blk (c : Dev nD) (t : Fin cfg0.N) (acc : Vec Ideal S1x256x256 .f32) (u : Fin 1) (p q : Fin 256) :
    k0_pay5 (F := Ideal) (iblk0 V c 0 t) acc (ix3 u p q)
      = acc (ix3 (0 : Fin 1) p q) + tileM (V c main_v0) (t.val / 4) p q (t.val % 4) :=
  (pay5_apply (xblk V c t) acc u p q).trans (congrArg (acc (ix3 (0 : Fin 1) p q) + ·) (blockM V c t p q))

theorem pay4_blk (c : Dev nD) (t : Fin cfg0.N) (acc : Vec Ideal S1x256x1 .f32) (u : Fin 1) (p : Fin 256) (z : Fin 1) :
    k0_pay4 (F := Ideal) (iblk0 V c 0 t) acc (ix3 u p z)
      = acc (ix3 (0 : Fin 1) p (0 : Fin 1)) + tileS (V c main_v0) (t.val / 4) p (t.val % 4) :=
  (pay4_apply (xblk V c t) acc u p z).trans (congrArg (acc (ix3 (0 : Fin 1) p (0 : Fin 1)) + ·) (blockS V c t p))

/-- At a batch's first tile the carried blocks hold that tile alone. -/
theorem outs_A (c : Dev nD) (t : Fin cfg0.N) (h0 : t.val % 4 = 0) :
    (∀ (u : Fin 1) (p q : Fin 256), (outsAt0 V c t.val t.isLt).1 (ix3 u p q) = tileM (V c main_v0) (t.val / 4) p q 0)
    ∧ (∀ (u : Fin 1) (p : Fin 256) (z : Fin 1), (outsAt0 V c t.val t.isLt).2 (ix3 u p z) = tileS (V c main_v0) (t.val / 4) p 0) := by
  rw [outsAt0_A V c t h0]
  dsimp only
  constructor
  · intro u p q
    refine (congrFun (out_A_1 (F := Ideal) c (grid0.coords t) (ms0_0 t) (hs0_0 t) (ms0_1 t) (hs0_1 t) (ms0_2 t) (hs0_2 t)
      ((hcond0_0 t).mpr h0) (iblk0 V c 0 t)) (ix3 u p q)).trans ?_
    refine (pay5_blk V c t (k0_pay1 (F := Ideal)) u p q).trans ?_
    rw [pay1_apply, zero_add, h0]
  · intro u p z
    refine (congrFun (out_A_2 (F := Ideal) c (grid0.coords t) (ms0_0 t) (hs0_0 t) (ms0_1 t) (hs0_1 t) (ms0_2 t) (hs0_2 t)
      ((hcond0_0 t).mpr h0) (iblk0 V c 0 t)) (ix3 u p z)).trans ?_
    refine (pay4_blk V c t (k0_pay2 (F := Ideal)) u p z).trans ?_
    rw [pay2_apply, zero_add, h0]

/-- At a later tile they hold what the point before left plus this tile. -/
theorem outs_B (c : Dev nD) (t : Fin cfg0.N) (h0 : ¬t.val % 4 = 0) :
    (∀ (u : Fin 1) (p q : Fin 256), (outsAt0 V c t.val t.isLt).1 (ix3 u p q)
        = (outsAt0 V c (t.val - 1) (Nat.lt_of_le_of_lt (Nat.sub_le _ _) t.isLt)).1 (ix3 (0 : Fin 1) p q)
          + tileM (V c main_v0) (t.val / 4) p q (t.val % 4))
    ∧ (∀ (u : Fin 1) (p : Fin 256) (z : Fin 1), (outsAt0 V c t.val t.isLt).2 (ix3 u p z)
        = (outsAt0 V c (t.val - 1) (Nat.lt_of_le_of_lt (Nat.sub_le _ _) t.isLt)).2 (ix3 (0 : Fin 1) p (0 : Fin 1))
          + tileS (V c main_v0) (t.val / 4) p (t.val % 4)) := by
  rw [outsAt0_B V c t h0]
  dsimp only
  constructor
  · intro u p q
    refine (congrFun (out_B_1 (F := Ideal) c (grid0.coords t) (ms0_0 t) (hs0_0 t) (ms0_1 t) (hs0_1 t) (ms0_2 t) (hs0_2 t)
      (fun h => h0 ((hcond0_0 t).mp h)) (iblk0 V c 0 t)
      (outsAt0 V c (t.val - 1) (Nat.lt_of_le_of_lt (Nat.sub_le _ _) t.isLt)).1
      (outsAt0 V c (t.val - 1) (Nat.lt_of_le_of_lt (Nat.sub_le _ _) t.isLt)).2) (ix3 u p q)).trans ?_
    exact pay5_blk V c t _ u p q
  · intro u p z
    refine (congrFun (out_B_2 (F := Ideal) c (grid0.coords t) (ms0_0 t) (hs0_0 t) (ms0_1 t) (hs0_1 t) (ms0_2 t) (hs0_2 t)
      (fun h => h0 ((hcond0_0 t).mp h)) (iblk0 V c 0 t)
      (outsAt0 V c (t.val - 1) (Nat.lt_of_le_of_lt (Nat.sub_le _ _) t.isLt)).1
      (outsAt0 V c (t.val - 1) (Nat.lt_of_le_of_lt (Nat.sub_le _ _) t.isLt)).2) (ix3 u p z)).trans ?_
    exact pay4_blk V c t _ u p z

/-- THE INVARIANT: after point n the carried blocks hold the sum of tiles 0 … n % 4 of batch n / 4. -/
theorem outs_eq (c : Dev nD) : ∀ (n : ℕ) (h : n < cfg0.N),
    (∀ (u : Fin 1) (p q : Fin 256), (outsAt0 V c n h).1 (ix3 u p q)
        = ∑ i ∈ Finset.range (n % 4 + 1), tileM (V c main_v0) (n / 4) p q i)
    ∧ (∀ (u : Fin 1) (p : Fin 256) (z : Fin 1), (outsAt0 V c n h).2 (ix3 u p z)
        = ∑ i ∈ Finset.range (n % 4 + 1), tileS (V c main_v0) (n / 4) p i)
  | 0, h => by
    obtain ⟨a1, a2⟩ := outs_A V c ⟨0, h⟩ (Nat.zero_mod _)
    refine ⟨fun u p q => (a1 u p q).trans ?_, fun u p z => (a2 u p z).trans ?_⟩
    · exact (Finset.sum_range_one _).symm
    · exact (Finset.sum_range_one _).symm
  | n + 1, h => by
    by_cases h0 : (n + 1) % 4 = 0
    · obtain ⟨a1, a2⟩ := outs_A V c ⟨n + 1, h⟩ h0
      refine ⟨fun u p q => (a1 u p q).trans ?_, fun u p z => (a2 u p z).trans ?_⟩
      · rw [h0]; exact (Finset.sum_range_one _).symm
      · rw [h0]; exact (Finset.sum_range_one _).symm
    · obtain ⟨b1, b2⟩ := outs_B V c ⟨n + 1, h⟩ h0
      obtain ⟨i1, i2⟩ := outs_eq c n (Nat.lt_of_succ_lt h)
      have e1 : (n + 1) / 4 = n / 4 := by omega
      have e2 : (n + 1) % 4 = n % 4 + 1 := by omega
      refine ⟨fun u p q => (b1 u p q).trans ?_, fun u p z => (b2 u p z).trans ?_⟩
      · refine (congrArg (· + _) (i1 0 p q)).trans ?_
        show _ + tileM (V c main_v0) ((n + 1) / 4) p q ((n + 1) % 4) = _
        rw [e1, e2]
        exact (Finset.sum_range_succ _ _).symm
      · refine (congrArg (· + _) (i2 0 p 0)).trans ?_
        show _ + tileS (V c main_v0) ((n + 1) / 4) p ((n + 1) % 4) = _
        rw [e1, e2]
        exact (Finset.sum_range_succ _ _).symm

end Region

section Final
variable (V : (c : Dev nD) → (b : Ref sig .tc) → Buf (Elt Ideal) ((c : Thread nD τ).loc b))

/-- Four tiles of 4096 positions are the 16384 positions: the tiles of a batch's second moment add up to it. -/
theorem tiles_M (X : Cert.Spec.Act) (b : Fin 8) (p q : Fin 256) :
    ∑ i ∈ Finset.range 4, tileM X b.val p q i = Cert.Spec.rawMoment X b p q := by
  unfold Cert.Spec.rawMoment
  rw [← Cert.LibTileSum.sum_fin_eq_range 4 (fun i => tileM X b.val p q i)]
  refine Eq.trans ?_ (Cert.LibTileSum.sum_tiles 4 4096 (fun m : Fin (4 * 4096) => X (ix3 b p m) * X (ix3 b q m))).symm
  refine Finset.sum_congr rfl fun i _ => ?_
  unfold tileM
  rw [dif_pos ⟨b.isLt, i.isLt⟩]

/-- … and the tiles of a channel's sum add up to it. -/
theorem tiles_S (X : Cert.Spec.Act) (b : Fin 8) (p : Fin 256) :
    ∑ i ∈ Finset.range 4, tileS X b.val p i = Cert.Spec.chanSum X b p := by
  unfold Cert.Spec.chanSum
  rw [← Cert.LibTileSum.sum_fin_eq_range 4 (fun i => tileS X b.val p i)]
  refine Eq.trans ?_ (Cert.LibTileSum.sum_tiles 4 4096 (fun m : Fin (4 * 4096) => X (ix3 b p m))).symm
  refine Finset.sum_congr rfl fun i _ => ?_
  unfold tileS
  rw [dif_pos ⟨b.isLt, i.isLt⟩]

/-- The output windows' block index at a grid point: batch t / 4, the one block of the other two axes. -/
theorem idx0_1 : ∀ t : Fin cfg0.N, win0_1.index t 0 = t.val / 4 ∧ win0_1.index t 1 = 0 ∧ win0_1.index t 2 = 0 :=
  (by decide +kernel : ∀ t : Fin grid0.N, win0_1.index t 0 = t.val / 4 ∧ win0_1.index t 1 = 0 ∧ win0_1.index t 2 = 0)
theorem idx0_2 : ∀ t : Fin cfg0.N, win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0)

/-- What a batch's last point writes back to the moment array is that batch's block of the raw second moment. -/
theorem flushed1_eq (c : Dev nD) (t : Fin cfg0.N) (hf : (cfg0.win 1).flush t = true) :
    (dat0 (F := Ideal) V c).flushed 1 t
      = ((cfg0.win 1).blk t).view.read (Elt Ideal) (fun i => Cert.Spec.rawMoment (V c main_v0) (i 0) (i 1) (i 2)) := by
  have h3 : t.val % 4 = 3 := (flush0_1 t).mp hf
  obtain ⟨e0, e1, e2⟩ := idx0_1 t
  show (cfg0.win 1).cut (grid0.coords t) ((dat0 V c).after 1 t) = _
  rw [after0_1]
  funext j
  obtain ⟨u, p, q, rfl⟩ : ∃ (u : Fin 1) (p q : Fin 256), j = ix3 u p q := ⟨j 0, j 1, j 2, eq_ix3 j⟩
  rw [View.read_apply]
  have hb : ((cfg0.win 1).blk t).view.emb (ix3 u p q) = ix3 (⟨t.val / 4, lt8 t⟩ : Fin 8) p q := funext fun a => Fin.ext (by
    match a with
    | ⟨0, _⟩ => show win0_1.index t 0 * 1 + 1 * u.val = t.val / 4; rw [e0]; omega
    | ⟨1, _⟩ => show win0_1.index t 1 * 256 + 1 * p.val = p.val; rw [e1]; omega
    | ⟨2, _⟩ => show win0_1.index t 2 * 256 + 1 * q.val = q.val; rw [e2]; omega)
  rw [hb]
  have L : (cfg0.win 1).cut (grid0.coords t) (outsAt0 V c t.val t.isLt).1 (ix3 u p q)
      = (outsAt0 V c t.val t.isLt).1 (ix3 u p q) := rfl
  rw [L]
  refine Eq.trans ?_ (cast_eq _ _).symm
  show _ = Cert.Spec.rawMoment (V c main_v0) (⟨t.val / 4, lt8 t⟩ : Fin 8) p q
  rw [(outs_eq V c t.val t.isLt).1 u p q, h3]
  exact tiles_M (V c main_v0) ⟨t.val / 4, lt8 t⟩ p q

/-- … and to the sum array that batch's channel sums. -/
theorem flushed2_eq (c : Dev nD) (t : Fin cfg0.N) (hf : (cfg0.win 2).flush t = true) :
    (dat0 (F := Ideal) V c).flushed 2 t
      = ((cfg0.win 2).blk t).view.read (Elt Ideal) (fun i => Cert.Spec.chanSum (V c main_v0) (i 0) (i 1)) := by
  have h3 : t.val % 4 = 3 := (flush0_2 t).mp hf
  obtain ⟨e0, e1, e2⟩ := idx0_2 t
  show (cfg0.win 2).cut (grid0.coords t) ((dat0 V c).after 2 t) = _
  rw [after0_2]
  funext j
  obtain ⟨u, p, z, rfl⟩ : ∃ (u : Fin 1) (p : Fin 256) (z : Fin 1), j = ix3 u p z := ⟨j 0, j 1, j 2, eq_ix3 j⟩
  rw [View.read_apply]
  have hb : ((cfg0.win 2).blk t).view.emb (ix3 u p z) = ix3 (⟨t.val / 4, lt8 t⟩ : Fin 8) p (0 : Fin 1) := funext fun a => Fin.ext (by
    match a with
    | ⟨0, _⟩ => show win0_2.index t 0 * 1 + 1 * u.val = t.val / 4; rw [e0]; omega
    | ⟨1, _⟩ => show win0_2.index t 1 * 256 + 1 * p.val = p.val; rw [e1]; omega
    | ⟨2, _⟩ => show win0_2.index t 2 * 1 + 1 * z.val = 0; rw [e2]; omega)
  rw [hb]
  have L : (cfg0.win 2).cut (grid0.coords t) (outsAt0 V c t.val t.isLt).2 (ix3 u p z)
      = (outsAt0 V c t.val t.isLt).2 (ix3 u p z) := rfl
  rw [L]
  refine Eq.trans ?_ (cast_eq _ _).symm
  show _ = Cert.Spec.chanSum (V c main_v0) (⟨t.val / 4, lt8 t⟩ : Fin 8) p
  rw [(outs_eq V c t.val t.isLt).2 u p z, h3]
  exact tiles_S (V c main_v0) ⟨t.val / 4, lt8 t⟩ p

/-- Every entry of the moment array lies in the block its batch's last point writes back. -/
theorem cover1 (i : (⟨3, ![8, 256, 256]⟩ : Shape).Idx) :
    ∃ t : Fin cfg0.N, (cfg0.win 1).flush t = true ∧ i ∈ ((cfg0.win 1).blk t).view.set := by
  have hi0 : (i 0).val < 8 := (i 0).isLt
  have hi1 : (i 1).val < 256 := (i 1).isLt
  have hi2 : (i 2).val < 256 := (i 2).isLt
  have ht : 4 * (i 0).val + 3 < cfg0.N := lt_of_lt_of_eq (by omega) (show cfg0.N = 32 from N_0).symm
  obtain ⟨e0, e1, e2⟩ := idx0_1 ⟨4 * (i 0).val + 3, ht⟩
  have e0' : win0_1.index ⟨4 * (i 0).val + 3, ht⟩ 0 = (4 * (i 0).val + 3) / 4 := e0
  refine ⟨⟨4 * (i 0).val + 3, ht⟩, (flush0_1 _).mpr (by show (4 * (i 0).val + 3) % 4 = 3; omega), ?_⟩
  show i ∈ ((View.whole main_v1_0).slice (win0_1.rect ⟨4 * (i 0).val + 3, ht⟩)).set
  rw [View.set_slice_whole, Rect.mem_set_unit]
  intro a
  match a with
  | ⟨0, _⟩ =>
    show win0_1.index ⟨4 * (i 0).val + 3, ht⟩ 0 * 1 ≤ (i 0).val ∧ (i 0).val < win0_1.index ⟨4 * (i 0).val + 3, ht⟩ 0 * 1 + 1
    rw [e0']; omega
  | ⟨1, _⟩ =>
    show win0_1.index ⟨4 * (i 0).val + 3, ht⟩ 1 * 256 ≤ (i 1).val ∧ (i 1).val < win0_1.index ⟨4 * (i 0).val + 3, ht⟩ 1 * 256 + 256
    rw [e1]; omega
  | ⟨2, _⟩ =>
    show win0_1.index ⟨4 * (i 0).val + 3, ht⟩ 2 * 256 ≤ (i 2).val ∧ (i 2).val < win0_1.index ⟨4 * (i 0).val + 3, ht⟩ 2 * 256 + 256
    rw [e2]; omega

/-- … and every entry of the sum array likewise. -/
theorem cover2 (i : (⟨3, ![8, 256, 1]⟩ : Shape).Idx) :
    ∃ t : Fin cfg0.N, (cfg0.win 2).flush t = true ∧ i ∈ ((cfg0.win 2).blk t).view.set := by
  have hi0 : (i 0).val < 8 := (i 0).isLt
  have hi1 : (i 1).val < 256 := (i 1).isLt
  have hi2 : (i 2).val < 1 := (i 2).isLt
  have ht : 4 * (i 0).val + 3 < cfg0.N := lt_of_lt_of_eq (by omega) (show cfg0.N = 32 from N_0).symm
  obtain ⟨e0, e1, e2⟩ := idx0_2 ⟨4 * (i 0).val + 3, ht⟩
  have e0' : win0_2.index ⟨4 * (i 0).val + 3, ht⟩ 0 = (4 * (i 0).val + 3) / 4 := e0
  refine ⟨⟨4 * (i 0).val + 3, ht⟩, (flush0_2 _).mpr (by show (4 * (i 0).val + 3) % 4 = 3; omega), ?_⟩
  show i ∈ ((View.whole main_v1_1).slice (win0_2.rect ⟨4 * (i 0).val + 3, ht⟩)).set
  rw [View.set_slice_whole, Rect.mem_set_unit]
  intro a
  match a with
  | ⟨0, _⟩ =>
    show win0_2.index ⟨4 * (i 0).val + 3, ht⟩ 0 * 1 ≤ (i 0).val ∧ (i 0).val < win0_2.index ⟨4 * (i 0).val + 3, ht⟩ 0 * 1 + 1
    rw [e0']; omega
  | ⟨1, _⟩ =>
    show win0_2.index ⟨4 * (i 0).val + 3, ht⟩ 1 * 256 ≤ (i 1).val ∧ (i 1).val < win0_2.index ⟨4 * (i 0).val + 3, ht⟩ 1 * 256 + 256
    rw [e1]; omega
  | ⟨2, _⟩ =>
    show win0_2.index ⟨4 * (i 0).val + 3, ht⟩ 2 * 1 ≤ (i 2).val ∧ (i 2).val < win0_2.index ⟨4 * (i 0).val + 3, ht⟩ 2 * 1 + 1
    rw [e2]; omega

/-- REGION 0's moment array after the run: each batch's raw second moment of the activations as the region finds them. -/
theorem raw_array (c : Dev nD) :
    (dat0 (F := Ideal) V c).arrAt 1 cfg0.N = fun i => Cert.Spec.rawMoment (V c main_v0) (i 0) (i 1) (i 2) :=
  (dat0 (F := Ideal) V c).arrAt_eq_of_cover 1 _ (flushed1_eq V c) cover1

/-- REGION 0's sum array after the run: each batch's channel sums. -/
theorem sum_array (c : Dev nD) :
    (dat0 (F := Ideal) V c).arrAt 2 cfg0.N = fun i => Cert.Spec.chanSum (V c main_v0) (i 0) (i 1) :=
  (dat0 (F := Ideal) V c).arrAt_eq_of_cover 2 _ (flushed2_eq V c) cover2

end Final

end Cert.KernelIdeal.CovRegion

end
-- ==== Proof.NsKernel.lean ====
/-
  The Newton–Schulz region's stored value.

  The region reads the raw second moment R (a [1,256,256] block) and the channel sums s (a [1,256,1]
  block), forms the covariance A = R/M − (s/M)(s/M)ᵀ, normalises it by its Frobenius norm, runs five
  coupled Newton–Schulz steps and stores the row means of Z₅/√‖A‖. This module identifies that stored
  vector with `Cert.Spec.nsY (Cert.Spec.aOf R s)`, working matrix by matrix: each vector operation is
  read once as an operation on 256 × 256 matrices, and each intermediate value is identified with the
  named iterate of the specification, so that no iterate is ever expanded into sums at an index.
-/
import proofs.«123247_j31610959298823_2_alg».proof.Proof.Gen.KernelIdeal.Frame
import proofs.«123247_j31610959298823_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.NsKernel

open Cert.KernelIdeal Cert.KernelIdeal.Gen Idealize.ShloMosaic Idealize.ShloMosaic.ValueIdx
open Idealize.ShloMosaic.TcCoe

/-! ## Vectors as matrices -/

/-- A 256 × 256 vector read as a matrix, by row and column. -/
def toMat (v : FVec Ideal S256x256 .f32) : Cert.Spec.Mat := fun i j => v (ix2 i j)

/-- The elementwise operations act entrywise on the matrix. -/
theorem toMat_mulf (a b : FVec Ideal S256x256 .f32) : toMat (mulf a b) = fun i j => toMat a i j * toMat b i j := rfl
theorem toMat_subf (a b : FVec Ideal S256x256 .f32) : toMat (subf a b) = fun i j => toMat a i j - toMat b i j := rfl
theorem toMat_divf (a b : FVec Ideal S256x256 .f32) :
    toMat (divf a b) = fun i j => Ideal.div (toMat a i j) (toMat b i j) := rfl
/-- A broadcast scalar is the constant matrix. -/
theorem toMat_broadcast (x : Ideal .f32) : toMat (broadcast S256x256 x) = fun _ _ => x := rfl

/-! ## The matrix product -/

theorem lhs_row (i : S256x256.Idx) (q : dot_S256x256_S256x256_S256x256_1_0_0_1_n_n.contr.Idx) :
    (dot_S256x256_S256x256_S256x256_1_0_0_1_n_n.lhsIdx i q 0).val = (i 0).val := by
  unfold DotDims.lhsIdx
  rw [dif_neg (show ¬(0 : Fin S256x256.rank) ∈ dot_S256x256_S256x256_S256x256_1_0_0_1_n_n.lhsBatch by decide),
    dif_pos (show (0 : Fin S256x256.rank) ∈ dot_S256x256_S256x256_S256x256_1_0_0_1_n_n.lhsNonContracting by decide)]
  rfl
theorem lhs_col (i : S256x256.Idx) (q : dot_S256x256_S256x256_S256x256_1_0_0_1_n_n.contr.Idx) :
    (dot_S256x256_S256x256_S256x256_1_0_0_1_n_n.lhsIdx i q 1).val = (q ⟨0, by decide⟩).val :=
  dot_S256x256_S256x256_S256x256_1_0_0_1_n_n.lhsIdx_val_of_single rfl i q
theorem rhs_row (i : S256x256.Idx) (q : dot_S256x256_S256x256_S256x256_1_0_0_1_n_n.contr.Idx) :
    (dot_S256x256_S256x256_S256x256_1_0_0_1_n_n.rhsIdx i q 0).val = (q ⟨0, by decide⟩).val :=
  dot_S256x256_S256x256_S256x256_1_0_0_1_n_n.rhsIdx_val_of_single rfl i q
theorem rhs_col (i : S256x256.Idx) (q : dot_S256x256_S256x256_S256x256_1_0_0_1_n_n.contr.Idx) :
    (dot_S256x256_S256x256_S256x256_1_0_0_1_n_n.rhsIdx i q 1).val = (i 1).val := by
  unfold DotDims.rhsIdx
  rw [dif_neg (show ¬(1 : Fin S256x256.rank) ∈ dot_S256x256_S256x256_S256x256_1_0_0_1_n_n.rhsBatch by decide),
    dif_pos (show (1 : Fin S256x256.rank) ∈ dot_S256x256_S256x256_S256x256_1_0_0_1_n_n.rhsNonContracting by decide)]
  rfl

/-- A matrix-unit product into the zero accumulator is the matrix product: entry (i, j) sums, over the one
    contracted coordinate k, the left operand at (i, k) times the right operand at (k, j). -/
theorem toMat_matmul (prec : Option ContractPrecision) (P Q : FVec Ideal S256x256 .f32) :
    toMat (matmul dot_S256x256_S256x256_S256x256_1_0_0_1_n_n prec P Q (constant (F := Ideal) S256x256 .f32 0x00000000#32))
      = Cert.Spec.mm (toMat P) (toMat Q) := by
  funext i j
  show FloatOps.matmul dot_S256x256_S256x256_S256x256_1_0_0_1_n_n prec P Q (constant (F := Ideal) S256x256 .f32 0x00000000#32) (ix2 i j)
    = ∑ k : Fin 256, P (ix2 i k) * Q (ix2 k j)
  rw [Ideal.matmul_constant_zero_apply,
    ← Equiv.sum_comp (contrEquiv1 dot_S256x256_S256x256_S256x256_1_0_0_1_n_n 256 rfl rfl).symm]
  refine Finset.sum_congr rfl fun k _ => ?_
  have hk := contrEquiv1_symm_val dot_S256x256_S256x256_S256x256_1_0_0_1_n_n 256 rfl rfl k
  have el : dot_S256x256_S256x256_S256x256_1_0_0_1_n_n.lhsIdx (ix2 i j)
      ((contrEquiv1 dot_S256x256_S256x256_S256x256_1_0_0_1_n_n 256 rfl rfl).symm k) = ix2 i k :=
    funext fun a => Fin.ext (by
      match a with
      | ⟨0, _⟩ => exact lhs_row _ _
      | ⟨1, _⟩ => exact (lhs_col _ _).trans hk)
  have er : dot_S256x256_S256x256_S256x256_1_0_0_1_n_n.rhsIdx (ix2 i j)
      ((contrEquiv1 dot_S256x256_S256x256_S256x256_1_0_0_1_n_n 256 rfl rfl).symm k) = ix2 k j :=
    funext fun a => Fin.ext (by
      match a with
      | ⟨0, _⟩ => exact (rhs_row _ _).trans hk
      | ⟨1, _⟩ => exact rhs_col _ _)
  rw [el, er]

/-! ## The identity matrix -/

/-- The word of 1.0 denotes the extended real 1. -/
theorem ofBits_one : Ideal.ofBits .f32 0x3F800000#32 = 1 := by
  simp [Ideal.ofBits, Ideal.ieee, -EReal.coe_mul]; norm_num

/-- Two coordinates below 256 have the same 32-bit word only if they are equal. -/
theorem word_inj (i j : Fin 256) (h : BitVec.ofNat 32 i.val = BitVec.ofNat 32 j.val) : i = j := by
  have e := congrArg BitVec.toNat h
  simp only [BitVec.toNat_ofNat] at e
  have hi := i.isLt
  have hj := j.isLt
  exact Fin.ext (by omega)

/-- The mask "row coordinate equals column coordinate", selecting 1.0 against 0.0, is the identity matrix. -/
theorem toMat_pay4 : toMat (k1_pay4 (F := Ideal)) = Cert.Spec.eye := by
  funext i j
  unfold k1_pay4 toMat
  show Scalar.select (IntOp.cmpi .eq (iota .tc S256x256 32 [0] iota_S256x256_d0_w32 (ix2 i j))
      (iota .tc S256x256 32 [1] iota_S256x256_d1_w32 (ix2 i j)))
      (Ideal.ofBits .f32 0x3F800000#32) (Ideal.ofBits .f32 0x00000000#32) = _
  rw [iota_single_apply, iota_single_apply, ofBits_one, Ideal.ofBits_zero_f32]
  show Scalar.select (IntOp.cmpi .eq (BitVec.ofNat 32 i.val) (BitVec.ofNat 32 j.val)) (1 : EReal) 0 = if i = j then 1 else 0
  by_cases h : i = j
  · subst h
    rw [if_pos rfl, (IntOp.cmpi_eq).mpr rfl, select_one]
  · rw [if_neg h, eq_zero_of_ne_one (fun hh => h (word_inj i j ((IntOp.cmpi_eq).mp hh))), select_zero]

/-! ## Layout operations at the shapes met here: a column broadcast, a one-entry broadcast, a vector cast to a column -/

section Layout
variable {α : Type}

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast to `[a, b]` reads its one entry everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- An `[a]` array cast to the column `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The covariance, its norm and the normalised matrix -/

/-- The column of means transposed to a row reads, at `(0, d)`, the column at `d`. -/
theorem transpose_col (v : FVec Ideal S256x1 .f32) (d : Fin 256) :
    transpose S1x256 [1, 0] v transposes_S256x1_p1_0_S1x256 (ix2 (0 : Fin 1) d) = v (ix2 d (0 : Fin 1)) :=
  transpose_ix2_apply v _ _ _

/-- The covariance the region forms from its two blocks: the raw second moment over M, less the outer
    product of the channel means (the column of means times its transpose). -/
theorem toMat_pay1 (x0 : Vec Ideal S1x256x256 .f32) (x1 : Vec Ideal S1x256x1 .f32) :
    toMat (k1_pay1 (F := Ideal) x1 x0)
      = Cert.Spec.aOf (fun c d => x0 (ix3 0 c d)) (fun c => x1 (ix3 0 c 0)) := by
  funext c d
  unfold k1_pay1 toMat
  dsimp only
  simp only [subf_apply, divf_apply, mulf_apply, broadcast_apply, shapeCast_1ab_ab_apply, broadcastTo_a1_ab_apply,
    broadcastTo_1b_ab_apply]
  rw [transpose_col]
  simp only [divf_apply, broadcast_apply, shapeCast_1ab_ab_apply]
  rfl

/-- The sum of all squared entries, rows first and then down the column of row sums, under a square root, is the
    Frobenius norm of the matrix. -/
theorem frobVec_eq (v : FVec Ideal S256x256 .f32) :
    sqrt (shapeCast S1x1 (multiReduction (F := Ideal) .add [0] S1
        (shapeCast S256x1 (multiReduction (F := Ideal) .add [1] S256 (mulf v v) 0x00000000#32 reduces_S256x256_S256 (.inl rfl) rfl)
          shapeCasts_S256_S256x1) 0x00000000#32 reduces_S256x1_S1 (.inl rfl) rfl) shapeCasts_S1_S1x1)
      = fun _ => Cert.Spec.frob (toMat v) := by
  funext idx
  obtain ⟨p, q, rfl⟩ : ∃ (p : Fin 1) (q : Fin 1), idx = ix2 p q := ⟨idx 0, idx 1, eq_ix2 idx⟩
  show Ideal.sqrt (shapeCast S1x1 _ shapeCasts_S1_S1x1 (ix2 p q))
    = Ideal.sqrt (∑ i : Fin 256, ∑ j : Fin 256, v (ix2 i j) * v (ix2 i j))
  congr 1
  rw [shapeCast_a_1a_apply]
  refine (Ideal.multiReduction_add_single _ _ reduces_S256x1_S1 _ _ (ix1 q)).trans ?_
  show ∑ r : Fin 256, shapeCast S256x1 _ shapeCasts_S256_S256x1 (reduces_S256x1_S1.lift (ix1 q) r) = _
  refine Finset.sum_congr rfl fun r _ => ?_
  have e1 : reduces_S256x1_S1.lift (ix1 q) r = ix2 r q :=
    funext fun a => Fin.ext (by match a with | ⟨0, _⟩ => rfl | ⟨1, _⟩ => rfl)
  rw [e1, shapeCast_a_a1_apply]
  refine (Ideal.multiReduction_add_single _ _ reduces_S256x256_S256 _ _ (ix1 r)).trans ?_
  show ∑ c : Fin 256, mulf v v (reduces_S256x256_S256.lift (ix1 r) c) = _
  refine Finset.sum_congr rfl fun c _ => ?_
  have e2 : reduces_S256x256_S256.lift (ix1 r) c = ix2 r c :=
    funext fun a => Fin.ext (by match a with | ⟨0, _⟩ => rfl | ⟨1, _⟩ => rfl)
  rw [e2]
  rfl

section Payloads
variable (x0 : Vec Ideal S1x256x256 .f32) (x1 : Vec Ideal S1x256x1 .f32)

/-- The covariance of the two blocks, and the start of the iteration. -/
abbrev covA : Cert.Spec.Mat := Cert.Spec.aOf (fun c d => x0 (ix3 0 c d)) (fun c => x1 (ix3 0 c 0))

/-- The norm the region keeps, as a one-entry vector. -/
theorem pay2_eq : k1_pay2 (F := Ideal) x1 x0 = fun _ => Cert.Spec.frob (covA x0 x1) := by
  unfold k1_pay2
  exact (frobVec_eq _).trans (by rw [toMat_pay1])

/-- The normalised matrix Y₀ = A / ‖A‖. -/
theorem toMat_pay3 : toMat (k1_pay3 (F := Ideal) x1 x0) = Cert.Spec.y0 (covA x0 x1) := by
  funext i j
  unfold k1_pay3 toMat
  show Ideal.div (k1_pay1 x1 x0 (ix2 i j)) (broadcastTo S256x256 (k1_pay2 x1 x0) broadcasts_S1x1_S256x256 (ix2 i j)) = _
  rw [broadcastTo_11_ab_apply, pay2_eq]
  show Ideal.div (toMat (k1_pay1 x1 x0) i j) _ = _
  rw [toMat_pay1]
  rfl

/-! ## The first step, taken from (Y₀, I) -/

/-- T₁ = ½ (3 I − I Y₀). -/
theorem toMat_pay5 : toMat (k1_pay5 (F := Ideal) x1 x0) = Cert.Spec.tOf (Cert.Spec.y0 (covA x0 x1)) Cert.Spec.eye := by
  unfold k1_pay5
  dsimp only
  simp only [toMat_mulf, toMat_subf, toMat_broadcast, toMat_matmul, toMat_pay4, toMat_pay3]
  rfl

/-- Y₁ = Y₀ T₁. -/
theorem toMat_pay6 : toMat (k1_pay6 (F := Ideal) x1 x0) = (Cert.Spec.iter 1 (Cert.Spec.y0 (covA x0 x1))).1 := by
  unfold k1_pay6
  dsimp only
  rw [toMat_matmul, toMat_pay3, toMat_pay5]
  rfl

/-- Z₁ = T₁ I. -/
theorem toMat_pay7 : toMat (k1_pay7 (F := Ideal) x1 x0) = (Cert.Spec.iter 1 (Cert.Spec.y0 (covA x0 x1))).2 := by
  unfold k1_pay7
  dsimp only
  rw [toMat_matmul, toMat_pay5, toMat_pay4]
  rfl

/-- 3 I − Z₁ Y₁: the second correction before its factor ½. -/
theorem toMat_pay8 : toMat (k1_pay8 (F := Ideal) x1 x0)
    = fun i j => Cert.Spec.c3 * Cert.Spec.eye i j
        - Cert.Spec.mm (Cert.Spec.iter 1 (Cert.Spec.y0 (covA x0 x1))).2 (Cert.Spec.iter 1 (Cert.Spec.y0 (covA x0 x1))).1 i j := by
  unfold k1_pay8
  dsimp only
  simp only [toMat_mulf, toMat_subf, toMat_broadcast, toMat_matmul, toMat_pay4, toMat_pay6, toMat_pay7]
  rfl

end Payloads

/-! ## One Newton–Schulz step on vectors -/

/-- 3 I − Z Y, formed from the identity vector and the pair. -/
theorem toMat_corr (prec : Option ContractPrecision) (I Y Z : FVec Ideal S256x256 .f32) (Ym Zm : Cert.Spec.Mat)
    (hI : toMat I = Cert.Spec.eye) (hY : toMat Y = Ym) (hZ : toMat Z = Zm) :
    toMat (subf (mulf (broadcast S256x256 (Scalar.ofBits (F := Ideal) .f32 0x40400000#32)) I)
        (matmul dot_S256x256_S256x256_S256x256_1_0_0_1_n_n prec Z Y (constant (F := Ideal) S256x256 .f32 0x00000000#32)))
      = fun i j => Cert.Spec.c3 * Cert.Spec.eye i j - Cert.Spec.mm Zm Ym i j := by
  rw [toMat_subf, toMat_mulf, toMat_broadcast, toMat_matmul, hI, hY, hZ]
  rfl

/-- With W = 3 I − Z Y and the factor ½, the products Y (½ W) and (½ W) Z are the step's new pair. -/
theorem toMat_step (prec : Option ContractPrecision) (cst : Ideal .f32) (W Y Z : FVec Ideal S256x256 .f32)
    (Ym Zm : Cert.Spec.Mat) (hc : cst = Cert.Spec.ch)
    (hW : toMat W = fun i j => Cert.Spec.c3 * Cert.Spec.eye i j - Cert.Spec.mm Zm Ym i j)
    (hY : toMat Y = Ym) (hZ : toMat Z = Zm) :
    toMat (matmul dot_S256x256_S256x256_S256x256_1_0_0_1_n_n prec Y (mulf (broadcast S256x256 cst) W)
        (constant (F := Ideal) S256x256 .f32 0x00000000#32)) = Cert.Spec.stepY Ym Zm
    ∧ toMat (matmul dot_S256x256_S256x256_S256x256_1_0_0_1_n_n prec (mulf (broadcast S256x256 cst) W) Z
        (constant (F := Ideal) S256x256 .f32 0x00000000#32)) = Cert.Spec.stepZ Ym Zm := by
  have hT : toMat (mulf (broadcast S256x256 cst) W) = Cert.Spec.tOf Ym Zm := by
    rw [toMat_mulf, toMat_broadcast, hW, hc]
    rfl
  constructor
  · rw [toMat_matmul, hY, hT]
    rfl
  · rw [toMat_matmul, hT, hZ]
    rfl

/-! ## The stored statistic: row means of Z₅ / √‖A‖ -/

/-- Dividing a matrix by the square root of a one-entry vector, summing each row, dividing by 256 and storing the
    column as a `[1, 256, 1]` block gives, at channel `i 1`, the row mean of the quotient. -/
theorem rowMeans_eq (v65 : FVec Ideal S256x256 .f32) (v18 : FVec Ideal S1x1 .f32) (M : Cert.Spec.Mat) (f : EReal)
    (h65 : toMat v65 = M) (h18 : v18 = fun _ => f) :
    shapeCast S1x256x1 (divf (shapeCast S256x1 (multiReduction (F := Ideal) .add [1] S256
        (divf v65 (broadcastTo S256x256 (sqrt v18) broadcasts_S1x1_S256x256)) 0x00000000#32 reduces_S256x256_S256 (.inl rfl) rfl)
        shapeCasts_S256_S256x1) (broadcast S256x1 (Scalar.ofBits (F := Ideal) .f32 0x43800000#32))) shapeCasts_S256x1_S1x256x1
      = fun i => Ideal.div (∑ j : Fin 256, Ideal.div (M (i 1) j) (Ideal.sqrt f)) Cert.Spec.cC := by
  subst h65 h18
  funext idx
  obtain ⟨u, p, q, rfl⟩ : ∃ (u : Fin 1) (p : Fin 256) (q : Fin 1), idx = ix3 u p q :=
    ⟨idx 0, idx 1, idx 2, eq_ix3 idx⟩
  rw [shapeCast_ab_1ab_apply, divf_apply, broadcast_apply, shapeCast_a_a1_apply]
  refine congrArg₂ Ideal.div ?_ rfl
  refine (Ideal.multiReduction_add_single _ _ reduces_S256x256_S256 _ _ (ix1 p)).trans ?_
  show ∑ c : Fin 256, divf v65 (broadcastTo S256x256 (sqrt fun _ => f) broadcasts_S1x1_S256x256)
      (reduces_S256x256_S256.lift (ix1 p) c) = _
  refine Finset.sum_congr rfl fun c _ => ?_
  have e2 : reduces_S256x256_S256.lift (ix1 p) c = ix2 p c :=
    funext fun a => Fin.ext (by match a with | ⟨0, _⟩ => rfl | ⟨1, _⟩ => rfl)
  rw [e2, divf_apply, broadcastTo_11_ab_apply]
  rfl

/-- The rest of the region, from the first step's pair (Y₁, Z₁), the norm and 3 I − Z₁ Y₁: four more steps, of which
    the last needs only Z₅, and the row means. -/
theorem pay9_eq (v18 : FVec Ideal S1x1 .f32) (v26 v33 v34 v38 : FVec Ideal S256x256 .f32) (cst : Ideal .f32)
    (Y0 : Cert.Spec.Mat) (f : EReal) (h18 : v18 = fun _ => f) (h26 : toMat v26 = Cert.Spec.eye)
    (h33 : toMat v33 = (Cert.Spec.iter 1 Y0).1) (h34 : toMat v34 = (Cert.Spec.iter 1 Y0).2)
    (h38 : toMat v38 = fun i j => Cert.Spec.c3 * Cert.Spec.eye i j
        - Cert.Spec.mm (Cert.Spec.iter 1 Y0).2 (Cert.Spec.iter 1 Y0).1 i j)
    (hc : cst = Cert.Spec.ch) :
    k1_pay9 (F := Ideal) v18 v26 v33 v34 v38 cst
      = fun i => Ideal.div (∑ j : Fin 256, Ideal.div
          (Cert.Spec.stepZ (Cert.Spec.iter 4 Y0).1 (Cert.Spec.iter 4 Y0).2 (i 1) j) (Ideal.sqrt f)) Cert.Spec.cC := by
  have s2 := toMat_step (some .fp32) cst v38 v33 v34 _ _ hc h38 h33 h34
  have s3 := toMat_step (some .fp32) (Scalar.ofBits (F := Ideal) .f32 0x3F000000#32) _ _ _ _ _ rfl
    (toMat_corr (some .fp32) v26 _ _ _ _ h26 s2.1 s2.2) s2.1 s2.2
  have s4 := toMat_step (some .fp32) (Scalar.ofBits (F := Ideal) .f32 0x3F000000#32) _ _ _ _ _ rfl
    (toMat_corr (some .fp32) v26 _ _ _ _ h26 s3.1 s3.2) s3.1 s3.2
  have s5 := toMat_step (some .fp32) (Scalar.ofBits (F := Ideal) .f32 0x3F000000#32) _ _ _ _ _ rfl
    (toMat_corr (some .fp32) v26 _ _ _ _ h26 s4.1 s4.2) s4.1 s4.2
  unfold k1_pay9
  exact rowMeans_eq _ _ _ _ s5.2 h18

/-! ## The region's stored block -/

theorem zero3 : (![0, 0, 0] : Fin 3 → Nat) = fun _ => 0 := funext fun a => by fin_cases a <;> rfl

/-- The region's stored block is the channel statistic of the covariance formed from its two input
    blocks. -/
theorem out1_2_eq (x0 : Vec Ideal S1x256x256 .f32) (x1 : Vec Ideal S1x256x1 .f32) :
    out1_2 (F := Ideal) x0 x1 = fun i => Cert.Spec.nsY (Cert.Spec.aOf (fun c d => x0 (ix3 0 c d)) (fun c => x1 (ix3 0 c 0))) (i 1) := by
  unfold out1_2
  rw [View.canon_unit_zero zero3]
  simp only [View.ld_unit_zero (S := S1x256x1) zero3, View.ld_unit_zero (S := S1x256x256) zero3]
  exact pay9_eq _ _ _ _ _ _ (Cert.Spec.y0 (covA x0 x1)) (Cert.Spec.frob (covA x0 x1)) (pay2_eq x0 x1) toMat_pay4
    (toMat_pay6 x0 x1) (toMat_pay7 x0 x1) (toMat_pay8 x0 x1) rfl

end Cert.KernelIdeal.NsKernel

end
-- ==== Proof.Regions12.lean ====
/-
  Regions 1 and 2, from blocks to whole arrays.

  Region 1 visits the eight batches one after another. At batch b it reads batch b's 256 × 256
  second-moment matrix and its column of 256 channel sums, and writes the column of 256 channel
  statistics into the entries (b, ·, 0) of the statistic array. The eight columns tile that array, so
  after the region the array holds, at (b, c, 0), the statistic of channel c computed from batch b's
  matrix and sums.

  Region 2 visits the 8 × 4 pairs (batch b, tile m of 4096 positions). At such a pair it reads the
  activations X[b, ·, 4096 m … 4096 m + 4095] and the gate column G[b, ·, 0], multiplies every
  position of channel c by G[b, c, 0], and writes the products to the same rectangle of the output.
  The 32 rectangles tile the output, so after the region the output holds X[b, c, k] · G[b, c, 0] at
  every index.

  Both halves take the same three steps: where each window's block sits at a grid point (the index
  maps, decided once over the grid); what one point writes back, as the restriction of ONE
  whole-array function to that point's rectangle; and that the rectangles cover the array.
-/
import proofs.«123247_j31610959298823_2_alg».proof.Proof.Gen.KernelIdeal.Frame
import proofs.«123247_j31610959298823_2_alg».proof.Proof.NsKernel
import proofs.«123247_j31610959298823_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Regions12

open Cert.KernelIdeal Cert.KernelIdeal.Gen Idealize.ShloMosaic Idealize.ShloMosaic.ValueIdx
open Idealize.ShloMosaic.TcCoe
open Idealize.ShloMosaic.Pipeline (Dat)

-- the contents of the buffers when a region is entered
variable (V : (c : Dev nD) → (b : Ref sig .tc) → Buf (Elt Ideal) ((c : Thread nD τ).loc b))

/-- The zero offsets of a rank-3 rectangle, as a constant function. -/
theorem hz3 : (![0, 0, 0] : Fin 3 → Nat) = fun _ => 0 := funext fun a => by fin_cases a <;> rfl

/-! ## Region 1: the channel statistics, batch by batch -/

/-- Where the three windows' blocks sit at point t of the grid of 8: block (t, 0, 0) of each array —
    batch t's matrix, batch t's sums, batch t's statistics. -/
theorem idx_facts1 : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 3) = t.val ∧ win1_2.index t (1 : Fin 3) = 0 ∧ win1_2.index t (2 : Fin 3) = 0 :=
  (by decide +kernel : ∀ t : Fin grid1.N, _)

/-- The channel statistics of every batch as one array: entry (b, c, 0) is the statistic of channel c
    computed from batch b's second-moment matrix R[b, ·, ·] and channel sums s[b, ·, 0]. -/
abbrev statArr (R : (⟨3, ![8, 256, 256]⟩ : Shape).Idx → EReal) (s : (⟨3, ![8, 256, 1]⟩ : Shape).Idx → EReal) :
    (⟨3, ![8, 256, 1]⟩ : Shape).Idx → EReal := fun i =>
  Cert.Spec.nsY (Cert.Spec.aOf (fun p q => R (ix3 (i 0) p q)) (fun p => s (ix3 (i 0) p (0 : Fin 1)))) (i 1)

/-- One stored entry against the statistic array: when the two input blocks are batch b's matrix and
    batch b's sums, the stored entry of channel p is the array's entry (b, p, 0). -/
theorem out1_2_stat (R : (⟨3, ![8, 256, 256]⟩ : Shape).Idx → EReal) (s : (⟨3, ![8, 256, 1]⟩ : Shape).Idx → EReal)
    (x0 : Vec Ideal S1x256x256 .f32) (x1 : Vec Ideal S1x256x1 .f32) (b : Fin 8) (p : Fin 256)
    (i : (⟨3, ![8, 256, 1]⟩ : Shape).Idx) (hi : i = ix3 b p (0 : Fin 1))
    (h0 : ∀ a d : Fin 256, x0 (ix3 (0 : Fin 1) a d) = R (ix3 b a d))
    (h1 : ∀ a : Fin 256, x1 (ix3 (0 : Fin 1) a (0 : Fin 1)) = s (ix3 b a (0 : Fin 1))) :
    out1_2 (F := Ideal) x0 x1 (ix3 (0 : Fin 1) p (0 : Fin 1)) = statArr R s i := by
  subst hi
  rw [NsKernel.out1_2_eq]
  show Cert.Spec.nsY (Cert.Spec.aOf (fun a d => x0 (ix3 (0 : Fin 1) a d)) (fun a => x1 (ix3 (0 : Fin 1) a (0 : Fin 1)))) p
    = Cert.Spec.nsY (Cert.Spec.aOf (fun a d => R (ix3 b a d)) (fun a => s (ix3 b a (0 : Fin 1)))) p
  rw [funext fun a => funext fun d => h0 a d, funext fun a => h1 a]

/-- What point t writes back is block t of the statistic array: the input blocks at t are batch t's
    matrix and sums (a block's coordinate is block index × block size + the coordinate inside the
    block), and the output block's entry (0, p, 0) lands on the array's entry (t, p, 0). -/
theorem flushed1_eq (c : Dev nD) (t : Fin cfg1.N) :
    (dat1 (F := Ideal) V c).flushed 2 t = ((cfg1.win 2).blk t).view.read (Elt Ideal) (statArr (V c main_v1_0) (V c main_v1_1)) := by
  show (cfg1.win 2).cut (grid1.coords t) ((dat1 V c).after 2 t) = _
  rw [after1_2]
  obtain ⟨e0, e1, e2, e3, e4, e5, e6, e7, e8⟩ := idx_facts1 t
  have hN : cfg1.N = 8 := N_1
  have ht : t.val < 8 := by have := t.isLt; omega
  funext j
  obtain ⟨u, p, z, rfl⟩ : ∃ (u : Fin 1) (p : Fin 256) (z : Fin 1), j = ix3 u p z := ⟨j 0, j 1, j 2, eq_ix3 j⟩
  obtain rfl : u = 0 := Subsingleton.elim _ _
  obtain rfl : z = 0 := Subsingleton.elim _ _
  show out1_2 (F := Ideal) (iblk1 V c 0 t) (iblk1 V c 1 t) (ix3 (0 : Fin 1) p (0 : Fin 1))
    = statArr (V c main_v1_0) (V c main_v1_1) (((cfg1.win 2).blk t).view.emb (ix3 (0 : Fin 1) p (0 : Fin 1)))
  refine out1_2_stat (V c main_v1_0) (V c main_v1_1) (iblk1 V c 0 t) (iblk1 V c 1 t) ⟨t.val, ht⟩ p
    (((cfg1.win 2).blk t).view.emb (ix3 (0 : Fin 1) p (0 : Fin 1))) ?_ (fun a d => ?_) (fun a => ?_)
  · funext ax; apply Fin.ext
    match ax with
    | ⟨0, _⟩ => show win1_2.index t (0 : Fin 3) * 1 + 1 * 0 = t.val; omega
    | ⟨1, _⟩ => show win1_2.index t (1 : Fin 3) * 256 + 1 * p.val = p.val; omega
    | ⟨2, _⟩ => show win1_2.index t (2 : Fin 3) * 1 + 1 * 0 = 0; omega
  · show V c main_v1_0 (((cfg1.win 0).blk t).view.emb (ix3 (0 : Fin 1) a d)) = V c main_v1_0 (ix3 (⟨t.val, ht⟩ : Fin 8) a d)
    refine congrArg (V c main_v1_0) ?_
    funext ax; apply Fin.ext
    match ax with
    | ⟨0, _⟩ => show win1_0.index t (0 : Fin 3) * 1 + 1 * 0 = t.val; omega
    | ⟨1, _⟩ => show win1_0.index t (1 : Fin 3) * 256 + 1 * a.val = a.val; omega
    | ⟨2, _⟩ => show win1_0.index t (2 : Fin 3) * 256 + 1 * d.val = d.val; omega
  · show V c main_v1_1 (((cfg1.win 1).blk t).view.emb (ix3 (0 : Fin 1) a (0 : Fin 1))) = V c main_v1_1 (ix3 (⟨t.val, ht⟩ : Fin 8) a (0 : Fin 1))
    refine congrArg (V c main_v1_1) ?_
    funext ax; apply Fin.ext
    match ax with
    | ⟨0, _⟩ => show win1_1.index t (0 : Fin 3) * 1 + 1 * 0 = t.val; omega
    | ⟨1, _⟩ => show win1_1.index t (1 : Fin 3) * 256 + 1 * a.val = a.val; omega
    | ⟨2, _⟩ => show win1_1.index t (2 : Fin 3) * 1 + 1 * 0 = 0; omega

/-- An index of the statistic array is in point t's block iff each coordinate is in the block's range
    on its axis. -/
theorem mem_blk1 (t : Fin cfg1.N) (i : S8x256x1.Idx) :
    i ∈ ((cfg1.win 2).blk t).view.set ↔ ∀ a : Fin 3, win1_2.index t a * S1x256x1.size a ≤ (i a).val ∧ (i a).val < win1_2.index t a * S1x256x1.size a + S1x256x1.size a := by
  show i ∈ ((View.whole main_v2).slice (win1_2.rect t)).set ↔ _
  rw [View.set_slice_whole, Rect.mem_set_unit]
  exact Iff.rfl

/-- Every index (b, c, 0) of the statistic array is in the block of point b. -/
theorem cover1 (i : S8x256x1.Idx) :
    ∃ t : Fin cfg1.N, (cfg1.win 2).flush t = true ∧ i ∈ ((cfg1.win 2).blk t).view.set := by
  have hi0 : (i 0).val < 8 := (i 0).isLt
  have hi1 : (i 1).val < 256 := (i 1).isLt
  have hi2 : (i 2).val < 1 := (i 2).isLt
  have hN : cfg1.N = 8 := N_1
  refine ⟨⟨(i 0).val, by rw [hN]; omega⟩, flush1_2 _, ?_⟩
  rw [mem_blk1]
  obtain ⟨e0, e1, e2, e3, e4, e5, e6, e7, e8⟩ := idx_facts1 ⟨(i 0).val, by rw [hN]; omega⟩
  intro a
  match a with
  | ⟨0, _⟩ => show win1_2.index _ (0 : Fin 3) * 1 ≤ (i 0).val ∧ (i 0).val < win1_2.index _ (0 : Fin 3) * 1 + 1; rw [e6]; dsimp only; omega
  | ⟨1, _⟩ => show win1_2.index _ (1 : Fin 3) * 256 ≤ (i 1).val ∧ (i 1).val < win1_2.index _ (1 : Fin 3) * 256 + 256; rw [e7]; omega
  | ⟨2, _⟩ => show win1_2.index _ (2 : Fin 3) * 1 ≤ (i 2).val ∧ (i 2).val < win1_2.index _ (2 : Fin 3) * 1 + 1; rw [e8]; omega

/-- THE STATISTIC ARRAY after region 1: at (b, c, 0) the statistic of channel c computed from batch b's
    second-moment matrix and channel sums as the region found them. -/
theorem y_array (c : Dev nD) :
    (dat1 (F := Ideal) V c).arrAt 2 cfg1.N = fun i => Cert.Spec.nsY (Cert.Spec.aOf (fun p q => V c main_v1_0 (ix3 (i 0) p q)) (fun p => V c main_v1_1 (ix3 (i 0) p 0))) (i 1) :=
  (dat1 (F := Ideal) V c).arrAt_eq_of_cover 2 (statArr (V c main_v1_0) (V c main_v1_1)) (fun t _ => flushed1_eq V c t) cover1

/-! ## Region 2: every position multiplied by its channel's gate -/

/-- Where the three windows' blocks sit at point t of the grid of 8 × 4 (t = 4 b + m): the activations'
    and the output's block (b, 0, m), the gate's block (b, 0, 0). -/
theorem idx_facts2 : ∀ t : Fin cfg2.N,
    win2_0.index t (0 : Fin 3) = t.val / 4 ∧ win2_0.index t (1 : Fin 3) = 0 ∧ win2_0.index t (2 : Fin 3) = t.val % 4
    ∧ win2_1.index t (0 : Fin 3) = t.val / 4 ∧ win2_1.index t (1 : Fin 3) = 0 ∧ win2_1.index t (2 : Fin 3) = 0
    ∧ win2_2.index t (0 : Fin 3) = t.val / 4 ∧ win2_2.index t (1 : Fin 3) = 0 ∧ win2_2.index t (2 : Fin 3) = t.val % 4 :=
  (by decide +kernel : ∀ t : Fin grid2.N, _)

/-- A column [a, 1] broadcast along b positions reads, at (p, k), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- The stored block of region 2, entry by entry: the activation at (0, p, k) times the gate at
    (0, p, 0). The body drops the unit axis of both blocks, broadcasts the gate column along the
    positions, multiplies, and puts the unit axis back. -/
theorem out2_2_apply (x : Vec Ideal S1x256x4096 .f32) (g : Vec Ideal S1x256x1 .f32) (p : Fin 256) (k : Fin 4096) :
    out2_2 (F := Ideal) x g (ix3 (0 : Fin 1) p k) = x (ix3 (0 : Fin 1) p k) * g (ix3 (0 : Fin 1) p (0 : Fin 1)) := by
  unfold out2_2
  rw [View.canon_unit_zero hz3]
  simp only [View.ld_unit_zero (S := S1x256x4096) hz3, View.ld_unit_zero (S := S1x256x1) hz3]
  unfold k2_pay1
  refine (shapeCast_ab_1ab_apply _ _ (0 : Fin 1) p k).trans ?_
  refine (mulf_apply _ _ _).trans ?_
  refine congrArg₂ (· * ·) (shapeCast_1ab_ab_apply _ _ p k) ?_
  refine (broadcastTo_a1_ab_apply _ _ p k).trans ?_
  exact shapeCast_1ab_ab_apply _ _ p (0 : Fin 1)

/-- One stored entry against the gated activations: when the activation block's entry (0, p, k) is the
    activation at array index i and the gate block's entry (0, p, 0) is the gate of i's batch and
    channel, the stored entry is the gated activation at i. -/
theorem out2_2_gated (X : Cert.Spec.Act) (G : Cert.Spec.Gate) (x : Vec Ideal S1x256x4096 .f32) (g : Vec Ideal S1x256x1 .f32)
    (p : Fin 256) (k : Fin 4096) (i : (⟨3, ![8, 256, 16384]⟩ : Shape).Idx) (i' : (⟨3, ![8, 256, 1]⟩ : Shape).Idx)
    (hx : x (ix3 (0 : Fin 1) p k) = X i) (hg : g (ix3 (0 : Fin 1) p (0 : Fin 1)) = G i') (hi' : i' = ix3 (i 0) (i 1) (0 : Fin 1)) :
    out2_2 (F := Ideal) x g (ix3 (0 : Fin 1) p k) = Cert.Spec.gated X G i := by
  rw [out2_2_apply, hx, hg, hi']
  rfl

/-- What point t writes back is block t of the gated activations: the activation block and the output
    block sit on the same rectangle of their arrays, and the gate block sits on the column of the same
    batch (a block's coordinate is block index × block size + the coordinate inside the block). -/
theorem flushed2_eq (c : Dev nD) (t : Fin cfg2.N) :
    (dat2 (F := Ideal) V c).flushed 2 t = ((cfg2.win 2).blk t).view.read (Elt Ideal) (Cert.Spec.gated (V c main_v0) (V c main_v21)) := by
  show (cfg2.win 2).cut (grid2.coords t) ((dat2 V c).after 2 t) = _
  rw [after2_2]
  obtain ⟨e0, e1, e2, e3, e4, e5, e6, e7, e8⟩ := idx_facts2 t
  funext j
  obtain ⟨u, p, k, rfl⟩ : ∃ (u : Fin 1) (p : Fin 256) (k : Fin 4096), j = ix3 u p k := ⟨j 0, j 1, j 2, eq_ix3 j⟩
  obtain rfl : u = 0 := Subsingleton.elim _ _
  show out2_2 (F := Ideal) (iblk2 V c 0 t) (iblk2 V c 1 t) (ix3 (0 : Fin 1) p k)
    = Cert.Spec.gated (V c main_v0) (V c main_v21) (((cfg2.win 2).blk t).view.emb (ix3 (0 : Fin 1) p k))
  refine out2_2_gated (V c main_v0) (V c main_v21) (iblk2 V c 0 t) (iblk2 V c 1 t) p k
    (((cfg2.win 2).blk t).view.emb (ix3 (0 : Fin 1) p k)) (((cfg2.win 1).blk t).view.emb (ix3 (0 : Fin 1) p (0 : Fin 1))) ?_ rfl ?_
  · show V c main_v0 (((cfg2.win 0).blk t).view.emb (ix3 (0 : Fin 1) p k)) = V c main_v0 (((cfg2.win 2).blk t).view.emb (ix3 (0 : Fin 1) p k))
    refine congrArg (V c main_v0) ?_
    funext a; apply Fin.ext
    match a with
    | ⟨0, _⟩ => show win2_0.index t (0 : Fin 3) * 1 + 1 * 0 = win2_2.index t (0 : Fin 3) * 1 + 1 * 0; omega
    | ⟨1, _⟩ => show win2_0.index t (1 : Fin 3) * 256 + 1 * p.val = win2_2.index t (1 : Fin 3) * 256 + 1 * p.val; omega
    | ⟨2, _⟩ => show win2_0.index t (2 : Fin 3) * 4096 + 1 * k.val = win2_2.index t (2 : Fin 3) * 4096 + 1 * k.val; omega
  · funext a; apply Fin.ext
    match a with
    | ⟨0, _⟩ => show win2_1.index t (0 : Fin 3) * 1 + 1 * 0 = win2_2.index t (0 : Fin 3) * 1 + 1 * 0; omega
    | ⟨1, _⟩ => show win2_1.index t (1 : Fin 3) * 256 + 1 * p.val = win2_2.index t (1 : Fin 3) * 256 + 1 * p.val; omega
    | ⟨2, _⟩ => show win2_1.index t (2 : Fin 3) * 1 + 1 * 0 = 0; omega

/-- An index of the output is in point t's block iff each coordinate is in the block's range on its
    axis. -/
theorem mem_blk2 (t : Fin cfg2.N) (i : S8x256x16384.Idx) :
    i ∈ ((cfg2.win 2).blk t).view.set ↔ ∀ a : Fin 3, win2_2.index t a * S1x256x4096.size a ≤ (i a).val ∧ (i a).val < win2_2.index t a * S1x256x4096.size a + S1x256x4096.size a := by
  show i ∈ ((View.whole main_v22).slice (win2_2.rect t)).set ↔ _
  rw [View.set_slice_whole, Rect.mem_set_unit]
  exact Iff.rfl

/-- Every index (b, c, k) of the output is in the block of point 4 b + k / 4096: batch b, the tile of
    4096 positions that holds k. -/
theorem cover2 (i : S8x256x16384.Idx) :
    ∃ t : Fin cfg2.N, (cfg2.win 2).flush t = true ∧ i ∈ ((cfg2.win 2).blk t).view.set := by
  have hi0 : (i 0).val < 8 := (i 0).isLt
  have hi1 : (i 1).val < 256 := (i 1).isLt
  have hi2 : (i 2).val < 16384 := (i 2).isLt
  have hN : cfg2.N = 32 := N_2
  refine ⟨⟨4 * (i 0).val + (i 2).val / 4096, by rw [hN]; omega⟩, flush2_2 _, ?_⟩
  rw [mem_blk2]
  obtain ⟨e0, e1, e2, e3, e4, e5, e6, e7, e8⟩ := idx_facts2 ⟨4 * (i 0).val + (i 2).val / 4096, by rw [hN]; omega⟩
  intro a
  match a with
  | ⟨0, _⟩ => show win2_2.index _ (0 : Fin 3) * 1 ≤ (i 0).val ∧ (i 0).val < win2_2.index _ (0 : Fin 3) * 1 + 1; rw [e6]; dsimp only; omega
  | ⟨1, _⟩ => show win2_2.index _ (1 : Fin 3) * 256 ≤ (i 1).val ∧ (i 1).val < win2_2.index _ (1 : Fin 3) * 256 + 256; rw [e7]; omega
  | ⟨2, _⟩ => show win2_2.index _ (2 : Fin 3) * 4096 ≤ (i 2).val ∧ (i 2).val < win2_2.index _ (2 : Fin 3) * 4096 + 4096; rw [e8]; dsimp only; omega

/-- THE OUTPUT after region 2: every activation multiplied by the gate of its batch and channel, the
    activations and the gate as the region found them. -/
theorem out_array (c : Dev nD) :
    (dat2 (F := Ideal) V c).arrAt 2 cfg2.N = Cert.Spec.gated (V c main_v0) (V c main_v21) :=
  (dat2 (F := Ideal) V c).arrAt_eq_of_cover 2 (Cert.Spec.gated (V c main_v0) (V c main_v21)) (fun t _ => flushed2_eq V c t) cover2

end Cert.KernelIdeal.Regions12

end
-- ==== Proof.KValue.lean ====
/-
  The kernel program's result as a function of its arguments. The last boundary's contents at the result buffer
  are walked back through the three regions and the host stretches: the reshaped activations X enter region 0,
  which leaves the raw second moments and channel sums; region 1 turns them into the statistic
  y[b, c] = nsY (covK X b) c; the host computes the gate from it; region 2 multiplies X by the gate along the
  positions; the last reshape restores the four axes.
-/
import proofs.«123247_j31610959298823_2_alg».proof.Proof.KRun
import proofs.«123247_j31610959298823_2_alg».proof.Proof.KGate
import proofs.«123247_j31610959298823_2_alg».proof.Proof.Spec
import proofs.«123247_j31610959298823_2_alg».proof.Proof.CovRegion
import proofs.«123247_j31610959298823_2_alg».proof.Proof.Regions12
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The activations as region 0 and region 2 read them: the input reshaped to [8, 256, 16384]. -/
abbrev X (c : Dev nD) : FVec Ideal S8x256x16384 .f32 :=
  shapeCast S8x256x16384 (m ((c : Thread nD τ).loc main_arg0)) shapeCasts_S8x256x128x128_S8x256x16384

/-! ## The host stretches, over a variable valuation -/

theorem reshape_in (Wv : Valuation τ sig (Elt Ideal)) :
    StableHlo.after hostOps0 Wv (Proc.devRef .tc main_v0)
      = shapeCast S8x256x16384 (Wv (Proc.devRef .tc main_arg0)) shapeCasts_S8x256x128x128_S8x256x16384 := by
  after_results_simp
  rfl

theorem reshape_in_keeps (Wv : Valuation τ sig (Elt Ideal)) :
    StableHlo.after hostOps0 Wv (Proc.devRef .tc main_arg1) = Wv (Proc.devRef .tc main_arg1)
    ∧ StableHlo.after hostOps0 Wv (Proc.devRef .tc main_arg2) = Wv (Proc.devRef .tc main_arg2)
    ∧ StableHlo.after hostOps0 Wv (Proc.devRef .tc main_arg3) = Wv (Proc.devRef .tc main_arg3)
    ∧ StableHlo.after hostOps0 Wv (Proc.devRef .tc main_arg4) = Wv (Proc.devRef .tc main_arg4) := by
  refine ⟨?_, ?_, ?_, ?_⟩ <;> after_results_simp

theorem gate_read (Wv : Valuation τ sig (Elt Ideal)) :
    StableHlo.after hostOps2_2 (StableHlo.after hostOps2_1 (StableHlo.after hostOps2 Wv)) (Proc.devRef .tc main_v21)
      = KGate.gate3 (F := Ideal) (Wv (Proc.devRef .tc main_v2)) (Wv (Proc.devRef .tc main_arg1)) (Wv (Proc.devRef .tc main_arg2))
          (Wv (Proc.devRef .tc main_arg3)) (Wv (Proc.devRef .tc main_arg4)) := by
  after_results_simp
  rfl

theorem gate_keeps_v0 (Wv : Valuation τ sig (Elt Ideal)) :
    StableHlo.after hostOps2_2 (StableHlo.after hostOps2_1 (StableHlo.after hostOps2 Wv)) (Proc.devRef .tc main_v0)
      = Wv (Proc.devRef .tc main_v0) := by
  after_results_simp

theorem reshape_out (Wv : Valuation τ sig (Elt Ideal)) :
    StableHlo.after hostOps3 Wv (Proc.devRef .tc main_v23)
      = shapeCast S8x256x128x128 (Wv (Proc.devRef .tc main_v22)) shapeCasts_S8x256x16384_S8x256x128x128 := by
  after_results_simp
  rfl

/-! ## The boundaries, walked back -/

/-- Region 0 enters on the reshaped activations. -/
theorem V1_v0 (c : Dev nD) : V1 m ρ c main_v0 = X m c := reshape_in (W0 m ρ c)

/-- Region 0 leaves the activations in place. -/
theorem W2_v0 (c : Dev nD) : W2 m ρ c (Proc.devRef .tc main_v0) = X m c :=
  ((W2_arr m ρ c 0).trans ((dat0 (V1 m ρ) c).arrAt_in 0 rfl _)).trans ((A_eq0 (V1 m ρ) c 0).trans (V1_v0 m ρ c))

/-- An argument array is untouched up to region 1's exit. -/
theorem W3_args (c : Dev nD) :
    W3 m ρ c (Proc.devRef .tc main_arg1) = m ((c : Thread nD τ).loc main_arg1)
    ∧ W3 m ρ c (Proc.devRef .tc main_arg2) = m ((c : Thread nD τ).loc main_arg2)
    ∧ W3 m ρ c (Proc.devRef .tc main_arg3) = m ((c : Thread nD τ).loc main_arg3)
    ∧ W3 m ρ c (Proc.devRef .tc main_arg4) = m ((c : Thread nD τ).loc main_arg4) :=
  ⟨((W3_of_ne m ρ c main_arg1 (by decide)).trans (W2_of_ne m ρ c main_arg1 (by decide))).trans (reshape_in_keeps (W0 m ρ c)).1,
   ((W3_of_ne m ρ c main_arg2 (by decide)).trans (W2_of_ne m ρ c main_arg2 (by decide))).trans (reshape_in_keeps (W0 m ρ c)).2.1,
   ((W3_of_ne m ρ c main_arg3 (by decide)).trans (W2_of_ne m ρ c main_arg3 (by decide))).trans (reshape_in_keeps (W0 m ρ c)).2.2.1,
   ((W3_of_ne m ρ c main_arg4 (by decide)).trans (W2_of_ne m ρ c main_arg4 (by decide))).trans (reshape_in_keeps (W0 m ρ c)).2.2.2⟩

/-- Region 2 enters on the activations and on the gate the host computed from the statistic. -/
theorem W6_v0 (c : Dev nD) : W6 m ρ c (Proc.devRef .tc main_v0) = X m c :=
  (gate_keeps_v0 (W3 m ρ c)).trans ((W3_of_ne m ρ c main_v0 (by decide)).trans (W2_v0 m ρ c))

/-- Region 1 leaves the statistic y[b, c] = nsY (covK X b) c. -/
theorem W3_v2 (c : Dev nD) :
    W3 m ρ c (Proc.devRef .tc main_v2) = fun i => Cert.Spec.nsY (Cert.Spec.covK (X m c) (i 0)) (i 1) := by
  refine (W3_arr m ρ c 2).trans ((Regions12.y_array (V2 m ρ) c).trans ?_)
  have e0 : V2 m ρ c main_v1_0 = fun i => Cert.Spec.rawMoment (X m c) (i 0) (i 1) (i 2) :=
    (W2_arr m ρ c 1).trans ((CovRegion.raw_array (V1 m ρ) c).trans (by rw [V1_v0 m ρ c]))
  have e1 : V2 m ρ c main_v1_1 = fun i => Cert.Spec.chanSum (X m c) (i 0) (i 1) :=
    (W2_arr m ρ c 2).trans ((CovRegion.sum_array (V1 m ρ) c).trans (by rw [V1_v0 m ρ c]))
  rw [e0, e1]
  rfl

theorem W6_v21 (c : Dev nD) :
    W6 m ρ c (Proc.devRef .tc main_v21)
      = KGate.gate3 (F := Ideal) (fun i => Cert.Spec.nsY (Cert.Spec.covK (X m c) (i 0)) (i 1))
          (m ((c : Thread nD τ).loc main_arg1)) (m ((c : Thread nD τ).loc main_arg2))
          (m ((c : Thread nD τ).loc main_arg3)) (m ((c : Thread nD τ).loc main_arg4)) := by
  refine (gate_read (W3 m ρ c)).trans ?_
  rw [W3_v2 m ρ c, (W3_args m ρ c).1, (W3_args m ρ c).2.1, (W3_args m ρ c).2.2.1, (W3_args m ρ c).2.2.2]
  rfl

/-- The result: X times the gate along the positions, reshaped to four axes. -/
theorem result_eq (c : Dev nD) :
    W8 m ρ c (Proc.devRef .tc main_v23)
      = shapeCast S8x256x128x128
          (Cert.Spec.gated (X m c)
            (KGate.gate3 (F := Ideal) (fun i => Cert.Spec.nsY (Cert.Spec.covK (X m c) (i 0)) (i 1))
              (m ((c : Thread nD τ).loc main_arg1)) (m ((c : Thread nD τ).loc main_arg2))
              (m ((c : Thread nD τ).loc main_arg3)) (m ((c : Thread nD τ).loc main_arg4))))
          shapeCasts_S8x256x16384_S8x256x128x128 := by
  refine (reshape_out (W7 m ρ c)).trans ?_
  have e : W7 m ρ c (Proc.devRef .tc main_v22) = Cert.Spec.gated (V6 m ρ c main_v0) (V6 m ρ c main_v21) :=
    (W7_arr m ρ c 2).trans (Regions12.out_array (V6 m ρ) c)
  rw [e]
  have e0 : V6 m ρ c main_v0 = X m c := W6_v0 m ρ c
  have e1 := W6_v21 m ρ c
  rw [e0]
  exact congrArg (fun G => shapeCast S8x256x128x128 (Cert.Spec.gated (X m c) G) shapeCasts_S8x256x16384_S8x256x128x128) e1

end Cert.KernelIdeal.KValue

end
-- ==== Proof.CovLaw.lean ====
/-
  The one algebraic law of this certificate: on finite entries, the second moment of the centred channels
  divided by the number of positions equals the raw second moment divided by the number of positions minus
  the product of the channel means.

  With M = 16384 positions, s_c = Σ_m X[c,m] and μ_c = s_c / M:

    (Σ_m (X[c,m] − μ_c)(X[d,m] − μ_d)) / M = (Σ_m X[c,m] X[d,m]) / M − μ_c μ_d,

  because Σ_m (X[c,m] − μ_c)(X[d,m] − μ_d) = Σ_m X[c,m] X[d,m] − μ_d s_c − μ_c s_d + M μ_c μ_d and
  μ_d s_c = μ_c s_d = M μ_c μ_d. The entries are extended reals; finiteness lets every sum, product,
  difference and quotient by the nonzero real M be computed in ℝ, where the identity is plain algebra.
-/
import proofs.«123247_j31610959298823_2_alg».proof.Proof.Spec

noncomputable section

open scoped BigOperators

namespace Cert.CovLaw

open Idealize.ShloMosaic Idealize.ShloMosaic.ValueIdx

/-- The float word of the position count denotes the real 16384. -/
theorem cM_eq : Cert.Spec.cM = ((16384 : ℝ) : EReal) := by
  unfold Cert.Spec.cM
  simp [Ideal.ofBits, Ideal.ieee, -EReal.coe_mul]; norm_num

/-- The coercion of reals into extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals, with the quotient by 16384 written as the product with its reciprocal. -/
theorem real_law (f g : Fin 16384 → ℝ) :
    (∑ m, (f m - (∑ k, f k) * (1 / 16384)) * (g m - (∑ k, g k) * (1 / 16384))) * (1 / 16384)
      = (∑ m, f m * g m) * (1 / 16384) - (∑ k, f k) * (1 / 16384) * ((∑ k, g k) * (1 / 16384)) := by
  have h : ∀ (a b : ℝ) (m : Fin 16384),
      (f m - a) * (g m - b) = f m * g m - b * f m - a * g m + a * b := fun a b m => by ring
  simp only [h, Finset.sum_add_distrib, Finset.sum_sub_distrib, ← Finset.mul_sum, Finset.sum_const,
    Finset.card_univ, Fintype.card_fin, nsmul_eq_mul, Nat.cast_ofNat]
  ring

/-- On finite entries the centred second moment and the raw second moment less the product of the means
    give the same covariance. -/
theorem cov_law (X : Cert.Spec.Act) (hfin : ∀ i, ∃ r : ℝ, X i = (r : EReal)) (b : Fin 8) :
    Cert.Spec.covR X b = Cert.Spec.covK X b := by
  choose x hx using hfin
  funext c d
  have hM : (16384 : ℝ) ≠ 0 := by norm_num
  simp only [Cert.Spec.covR, Cert.Spec.covK, Cert.Spec.aOf, Cert.Spec.rawMoment, Cert.Spec.chanSum, hx,
    cM_eq, Ideal.div_coe hM, ← coe_sum, ← EReal.coe_mul, ← EReal.coe_sub]
  exact congrArg _ (real_law _ _)

end Cert.CovLaw

end
-- ==== Proof.CovRef.lean ====
/-
  The reference's first ten stages compute the covariance of the centred channels.

  Reading the stages one operation at a time at the index (b, c, d): the input is reshaped to X[b, c, m];
  the channel sum s[b, c] = 0 + Σ_m X[b, c, m] is divided by 16384 to give the mean μ[b, c], which is
  broadcast along the positions and subtracted from X; the contraction of the centred array with itself
  over the positions gives Σ_m (X[b, c, m] − μ[b, c]) (X[b, d, m] − μ[b, d]), and this is divided by 16384.
  Each index function met on the way sends a coordinate-built index to a coordinate-built index.
-/
import proofs.«123247_j31610959298823_2_alg».proof.Proof.RefReadP
import proofs.«123247_j31610959298823_2_alg».proof.Proof.Spec
import Idealize.ShloMosaic.Lib.ValueIdx
import Idealize.ShloMosaic.PureOps.Ideal.Laws

noncomputable section

open scoped BigOperators

namespace Cert.ReferenceIdeal.CovRef

open Cert.ReferenceIdeal Cert.ReferenceIdeal.ReadP Idealize.ShloMosaic Idealize.ShloMosaic.ValueIdx
open Idealize.ShloMosaic.TcCoe

/-- The mean's broadcast reads the mean at position 0 of its unit axis. -/
theorem idx5 (b : Fin 8) (c : Fin 256) (k : Fin 16384) :
    idx_main_v5 (ix3 b c k) = ix3 b c (0 : Fin 1) :=
  funext fun a => Fin.ext (by match a with | ⟨0, _⟩ => rfl | ⟨1, _⟩ => rfl | ⟨2, _⟩ => rfl)

/-- The sum's broadcast to a unit axis reads the sum at (b, c). -/
theorem idx2 (b : Fin 8) (c : Fin 256) :
    idx_main_v2 (ix3 b c (0 : Fin 1)) = ix2 b c :=
  funext fun a => Fin.ext (by match a with | ⟨0, _⟩ => rfl | ⟨1, _⟩ => rfl)

/-- The channel sum at (b, c) runs over the entries (b, c, k). -/
theorem idx1 (b : Fin 8) (c : Fin 256) (k : Fin 16384) :
    idx_main_v1 (ix2 b c) k = ix3 b c k :=
  funext fun a => Fin.ext (by match a with | ⟨0, _⟩ => rfl | ⟨1, _⟩ => rfl | ⟨2, _⟩ => rfl)

/-- The contraction's left operand at (b, c, d) is read at (b, c, k). -/
theorem lidx7 (b : Fin 8) (c d : Fin 256) (k : Fin 16384) :
    lidx_main_v7 (ix3 b c d) k = ix3 b c k :=
  funext fun a => Fin.ext (by match a with | ⟨0, _⟩ => rfl | ⟨1, _⟩ => rfl | ⟨2, _⟩ => rfl)

/-- The contraction's right operand at (b, c, d) is read at (b, d, k). -/
theorem ridx7 (b : Fin 8) (c d : Fin 256) (k : Fin 16384) :
    ridx_main_v7 (ix3 b c d) k = ix3 b d k :=
  funext fun a => Fin.ext (by match a with | ⟨0, _⟩ => rfl | ⟨1, _⟩ => rfl | ⟨2, _⟩ => rfl)

/-- The broadcast mean: at every position of channel c it is the channel sum divided by 16384. -/
theorem ref_mean (x0 : (⟨S8x256x128x128, .f32⟩ : BufTy).Contents (Elt Ideal)) (b : Fin 8) (c : Fin 256)
    (k : Fin 16384) :
    val_main_v5 (F := Ideal) x0 (ix3 b c k)
      = Ideal.div (Cert.Spec.chanSum (val_main_v0 (F := Ideal) x0) b c) Cert.Spec.cM := by
  rw [val_main_v5_apply, idx5, val_main_v4_apply, Ideal.hostDivf_def, val_main_v3_apply, val_main_cst_0_apply,
    Ideal.ofBits_def, val_main_v2_apply, idx2, val_main_v1_apply, val_main_cst_apply, Ideal.ofBits_def,
    Ideal.ofBits_zero_f32, zero_add]
  simp only [idx1]
  rfl

/-- The reference's covariance stage is the second moment of the centred channels over 16384. -/
theorem ref_cov (x0 : (⟨S8x256x128x128, .f32⟩ : BufTy).Contents (Elt Ideal)) (b : Fin 8) (c d : Fin 256) :
    val_main_v9 (F := Ideal) x0 (ix3 b c d) = Cert.Spec.covR (val_main_v0 (F := Ideal) x0) b c d := by
  rw [val_main_v9_apply, Ideal.hostDivf_def, val_main_v8_apply, val_main_cst_1_apply, Ideal.ofBits_def,
    val_main_v7_apply]
  simp only [lidx7, ridx7, val_main_v6_apply, Ideal.subf_def, ref_mean]
  rfl

end Cert.ReferenceIdeal.CovRef

end
-- ==== Proof.NsRef.lean ====
/-
  The reference's Newton–Schulz part, read one operation at a time and identified, batch by batch,
  with the common mathematics: from the covariance A of a batch (a 256 × 256 matrix) the Frobenius
  norm ‖A‖, the normalised matrix Y₀ = A/‖A‖, five coupled steps T = ½(3I − ZY), Y ← YT, Z ← TZ
  from (Y₀, I), and the row means of Z₅/√‖A‖.

  Every lemma below states what one operation's result is at the index (b, i, j) of a batch b, in
  terms of the matrices of the iteration at that batch; a matrix product's lemma follows from the
  lemmas of its two operands term by term under the sum, so no iteration is ever expanded.
-/
import proofs.«123247_j31610959298823_2_alg».proof.Proof.RefReadP
import proofs.«123247_j31610959298823_2_alg».proof.Proof.Spec
import Idealize.ShloMosaic.Lib.ValueIdx
import Idealize.ShloMosaic.PureOps.Ideal.Laws
import Idealize.ShloMosaic.Lib.Pipeline.Value

noncomputable section

open scoped BigOperators

namespace Cert.ReferenceIdeal.NsRef

open Cert.ReferenceIdeal Cert.ReferenceIdeal.ReadP Idealize.ShloMosaic Idealize.ShloMosaic.ValueIdx Idealize.ShloMosaic.TcCoe

/-- Two indices of a rank-3 array are equal when their three coordinates are. -/
local macro "idx3" : tactic =>
  `(tactic| exact funext fun a => Fin.ext (by match a with | ⟨0, _⟩ => rfl | ⟨1, _⟩ => rfl | ⟨2, _⟩ => rfl))

/-- The covariance of batch `b`, as a matrix. -/
abbrev covOf (x0 : (⟨S8x256x128x128, .f32⟩ : BufTy).Contents (Elt Ideal)) (b : Fin 8) : Cert.Spec.Mat :=
  fun i j => val_main_v9 (F := Ideal) x0 (ix3 b i j)

/-- The pair (Yₙ, Zₙ) of batch `b` after n steps, and the correction Tₙ₊₁ computed from it. -/
abbrev Yn (x0 : (⟨S8x256x128x128, .f32⟩ : BufTy).Contents (Elt Ideal)) (b : Fin 8) (n : ℕ) : Cert.Spec.Mat :=
  (Cert.Spec.iter n (Cert.Spec.y0 (covOf x0 b))).1
abbrev Zn (x0 : (⟨S8x256x128x128, .f32⟩ : BufTy).Contents (Elt Ideal)) (b : Fin 8) (n : ℕ) : Cert.Spec.Mat :=
  (Cert.Spec.iter n (Cert.Spec.y0 (covOf x0 b))).2
abbrev Tn (x0 : (⟨S8x256x128x128, .f32⟩ : BufTy).Contents (Elt Ideal)) (b : Fin 8) (n : ℕ) : Cert.Spec.Mat :=
  Cert.Spec.tOf (Yn x0 b n) (Zn x0 b n)

/-! ## The Frobenius norm and the normalised matrix -/

/-- The sum over the two matrix axes: the indices that drop to batch `b` are the (b, p, q), one for each
    pair (p, q), so the sum over them is the double sum over rows and columns. -/
theorem sum_two_axes (h : S8x256x256.ReducesTo [1, 2] S8) (y : S8x256x256.Idx → EReal) (b : Fin 8) :
    ∑ i ∈ Finset.univ.filter (fun i => h.drop i = ix1 b), y i = ∑ p : Fin 256, ∑ q : Fin 256, y (ix3 b p q) := by
  rw [← Finset.sum_product']
  refine Finset.sum_nbij' (fun i => (i 1, i 2)) (fun pq => ix3 b pq.1 pq.2) ?_ ?_ ?_ ?_ ?_
  · intro i _; exact Finset.mem_product.mpr ⟨Finset.mem_univ _, Finset.mem_univ _⟩
  · intro pq _
    refine Finset.mem_filter.mpr ⟨Finset.mem_univ _, ?_⟩
    exact funext fun a => Fin.ext (by match a with | ⟨0, _⟩ => rfl)
  · intro i hi
    have h0 : i 0 = b := by
      have := congrFun (Finset.mem_filter.mp hi).2 (0 : Fin 1)
      exact Fin.ext (by have := congrArg Fin.val this; exact this)
    subst h0
    idx3
  · intro pq _; rfl
  · intro i hi
    have h0 : i 0 = b := by
      have := congrFun (Finset.mem_filter.mp hi).2 (0 : Fin 1)
      exact Fin.ext (by have := congrArg Fin.val this; exact this)
    subst h0
    exact congrArg y (by idx3)

/-- The squared entries. -/
theorem v10_eq (x0 : (⟨S8x256x128x128, .f32⟩ : BufTy).Contents (Elt Ideal)) (b : Fin 8) (i j : Fin 256) :
    val_main_v10 (F := Ideal) x0 (ix3 b i j) = covOf x0 b i j * covOf x0 b i j := rfl

/-- Their sum over a batch's matrix, rows first. -/
theorem v11_eq (x0 : (⟨S8x256x128x128, .f32⟩ : BufTy).Contents (Elt Ideal)) (b : Fin 8) :
    val_main_v11 (F := Ideal) x0 (ix1 b) = ∑ i : Fin 256, ∑ j : Fin 256, covOf x0 b i j * covOf x0 b i j := by
  unfold val_main_v11
  simp only [Host.reduceAdd, Ideal.hostReduceAdd_def]
  unfold Ideal.hostReduceAdd
  rw [sum_two_axes, val_main_cst_2_apply, Ideal.ofBits_def, Ideal.ofBits_zero_f32, zero_add]
  exact Finset.sum_congr rfl fun i _ => Finset.sum_congr rfl fun j _ => v10_eq x0 b i j

/-- The Frobenius norm of the batch's covariance, at the one entry of the batch's [1, 1] block. -/
theorem v13_eq (x0 : (⟨S8x256x128x128, .f32⟩ : BufTy).Contents (Elt Ideal)) (b : Fin 8) (u v : Fin 1) :
    val_main_v13 (F := Ideal) x0 (ix3 b u v) = Cert.Spec.frob (covOf x0 b) := by
  rw [val_main_v13_apply, val_main_v12_apply, Ideal.hostUnary_sqrt_def,
    show idx_main_v12 (ix3 b u v) = ix1 b from funext fun a => Fin.ext (by match a with | ⟨0, _⟩ => rfl), v11_eq]
  rfl

/-- The normalised matrix Y₀. -/
theorem v15_eq (x0 : (⟨S8x256x128x128, .f32⟩ : BufTy).Contents (Elt Ideal)) (b : Fin 8) (i j : Fin 256) :
    val_main_v15 (F := Ideal) x0 (ix3 b i j) = Yn x0 b 0 i j := by
  rw [val_main_v15_apply, val_main_v14_apply, Ideal.hostDivf_def,
    show idx_main_v14 (ix3 b i j) = ix3 b 0 0 by idx3, v13_eq]
  rfl

/-! ## The identity matrix -/

/-- The entry (i, j) of the identity: the comparison word of the two coordinates, read unsigned, is 1 on
    the diagonal and 0 off it (both coordinates are below 256, so their 32-bit words are equal only
    when they are). -/
theorem v22_eq (b : Fin 8) (i j : Fin 256) :
    val_main_v22 (F := Ideal) (ix3 b i j) = Cert.Spec.eye i j := by
  rw [val_main_v22_apply,
    show idx_main_v22 (ix3 b i j) = ix2 i j from
      funext fun a => Fin.ext (by match a with | ⟨0, _⟩ => rfl | ⟨1, _⟩ => rfl),
    val_main_v21_apply, val_main_v20_apply, val_main_v19_apply, val_main_v18_apply, val_main_c_apply,
    val_main_v16_apply, val_main_v17_apply]
  show (((IntOp.cmpi .eq (IntOp.addi (BitVec.ofNat 32 i.val) 0#32) (BitVec.ofNat 32 j.val)).toNat : ℝ) : EReal)
    = Cert.Spec.eye i j
  unfold Cert.Spec.eye IntOp.cmpi IntOp.addi
  by_cases hij : i = j
  · subst hij; simp
  · have hne : ¬ (BitVec.ofNat 32 i.val = BitVec.ofNat 32 j.val) := by
      intro h
      apply hij
      apply Fin.ext
      have h2 := congrArg BitVec.toNat h
      have hi := i.isLt
      have hj := j.isLt
      simp [BitVec.toNat_ofNat] at h2
      omega
    simp [hij, hne]

theorem v22_eq_Z0 (x0 : (⟨S8x256x128x128, .f32⟩ : BufTy).Contents (Elt Ideal)) (b : Fin 8) (i j : Fin 256) :
    val_main_v22 (F := Ideal) (ix3 b i j) = Zn x0 b 0 i j := v22_eq b i j

/-! ## Step 1 -/

/-- 3 I. -/
theorem v24_eq (b : Fin 8) (i j : Fin 256) :
    val_main_v24 (F := Ideal) (ix3 b i j) = Cert.Spec.c3 * Cert.Spec.eye i j := by
  rw [val_main_v24_apply, val_main_v23_apply, val_main_cst_3_apply, Ideal.mulf_def, Ideal.ofBits_def, v22_eq]
  rfl

/-- The product Z0 Y0: term by term under the sum, from the two factors' lemmas. -/
theorem v25_eq (x0 : (⟨S8x256x128x128, .f32⟩ : BufTy).Contents (Elt Ideal)) (b : Fin 8) (i j : Fin 256) :
    val_main_v25 (F := Ideal) x0 (ix3 b i j) = Cert.Spec.mm (Zn x0 b 0) (Yn x0 b 0) i j := by
  rw [val_main_v25_apply]
  unfold Cert.Spec.mm
  refine Finset.sum_congr rfl fun k _ => ?_
  rw [show lidx_main_v25 (ix3 b i j) k = ix3 b i k by idx3,
    show ridx_main_v25 (ix3 b i j) k = ix3 b k j by idx3,
    v22_eq_Z0 x0 b, v15_eq x0 b]

/-- 3 I − Z0 Y0. -/
theorem v26_eq (x0 : (⟨S8x256x128x128, .f32⟩ : BufTy).Contents (Elt Ideal)) (b : Fin 8) (i j : Fin 256) :
    val_main_v26 (F := Ideal) x0 (ix3 b i j)
      = Cert.Spec.c3 * Cert.Spec.eye i j - Cert.Spec.mm (Zn x0 b 0) (Yn x0 b 0) i j := by
  rw [val_main_v26_apply, Ideal.subf_def, v24_eq, v25_eq]

/-- The correction T1 = ½ (3 I − Z0 Y0). -/
theorem v28_eq (x0 : (⟨S8x256x128x128, .f32⟩ : BufTy).Contents (Elt Ideal)) (b : Fin 8) (i j : Fin 256) :
    val_main_v28 (F := Ideal) x0 (ix3 b i j) = Tn x0 b 0 i j := by
  rw [val_main_v28_apply, val_main_v27_apply, val_main_cst_4_apply, Ideal.mulf_def, Ideal.ofBits_def, v26_eq]
  rfl

/-- Y1 = Y0 T1. -/
theorem v29_eq (x0 : (⟨S8x256x128x128, .f32⟩ : BufTy).Contents (Elt Ideal)) (b : Fin 8) (i j : Fin 256) :
    val_main_v29 (F := Ideal) x0 (ix3 b i j) = Yn x0 b 1 i j := by
  rw [val_main_v29_apply]
  show _ = Cert.Spec.mm (Yn x0 b 0) (Tn x0 b 0) i j
  unfold Cert.Spec.mm
  refine Finset.sum_congr rfl fun k _ => ?_
  rw [show lidx_main_v29 (ix3 b i j) k = ix3 b i k by idx3,
    show ridx_main_v29 (ix3 b i j) k = ix3 b k j by idx3,
    v15_eq x0 b, v28_eq x0 b]

/-- Z1 = T1 Z0. -/
theorem v30_eq (x0 : (⟨S8x256x128x128, .f32⟩ : BufTy).Contents (Elt Ideal)) (b : Fin 8) (i j : Fin 256) :
    val_main_v30 (F := Ideal) x0 (ix3 b i j) = Zn x0 b 1 i j := by
  rw [val_main_v30_apply]
  show _ = Cert.Spec.mm (Tn x0 b 0) (Zn x0 b 0) i j
  unfold Cert.Spec.mm
  refine Finset.sum_congr rfl fun k _ => ?_
  rw [show lidx_main_v30 (ix3 b i j) k = ix3 b i k by idx3,
    show ridx_main_v30 (ix3 b i j) k = ix3 b k j by idx3,
    v28_eq x0 b, v22_eq_Z0 x0 b]

/-! ## Step 2 -/

/-- 3 I. -/
theorem v32_eq (b : Fin 8) (i j : Fin 256) :
    val_main_v32 (F := Ideal) (ix3 b i j) = Cert.Spec.c3 * Cert.Spec.eye i j := by
  rw [val_main_v32_apply, val_main_v31_apply, val_main_cst_5_apply, Ideal.mulf_def, Ideal.ofBits_def, v22_eq]
  rfl

/-- The product Z1 Y1: term by term under the sum, from the two factors' lemmas. -/
theorem v33_eq (x0 : (⟨S8x256x128x128, .f32⟩ : BufTy).Contents (Elt Ideal)) (b : Fin 8) (i j : Fin 256) :
    val_main_v33 (F := Ideal) x0 (ix3 b i j) = Cert.Spec.mm (Zn x0 b 1) (Yn x0 b 1) i j := by
  rw [val_main_v33_apply]
  unfold Cert.Spec.mm
  refine Finset.sum_congr rfl fun k _ => ?_
  rw [show lidx_main_v33 (ix3 b i j) k = ix3 b i k by idx3,
    show ridx_main_v33 (ix3 b i j) k = ix3 b k j by idx3,
    v30_eq x0 b, v29_eq x0 b]

/-- 3 I − Z1 Y1. -/
theorem v34_eq (x0 : (⟨S8x256x128x128, .f32⟩ : BufTy).Contents (Elt Ideal)) (b : Fin 8) (i j : Fin 256) :
    val_main_v34 (F := Ideal) x0 (ix3 b i j)
      = Cert.Spec.c3 * Cert.Spec.eye i j - Cert.Spec.mm (Zn x0 b 1) (Yn x0 b 1) i j := by
  rw [val_main_v34_apply, Ideal.subf_def, v32_eq, v33_eq]

/-- The correction T2 = ½ (3 I − Z1 Y1). -/
theorem v36_eq (x0 : (⟨S8x256x128x128, .f32⟩ : BufTy).Contents (Elt Ideal)) (b : Fin 8) (i j : Fin 256) :
    val_main_v36 (F := Ideal) x0 (ix3 b i j) = Tn x0 b 1 i j := by
  rw [val_main_v36_apply, val_main_v35_apply, val_main_cst_6_apply, Ideal.mulf_def, Ideal.ofBits_def, v34_eq]
  rfl

/-- Y2 = Y1 T2. -/
theorem v37_eq (x0 : (⟨S8x256x128x128, .f32⟩ : BufTy).Contents (Elt Ideal)) (b : Fin 8) (i j : Fin 256) :
    val_main_v37 (F := Ideal) x0 (ix3 b i j) = Yn x0 b 2 i j := by
  rw [val_main_v37_apply]
  show _ = Cert.Spec.mm (Yn x0 b 1) (Tn x0 b 1) i j
  unfold Cert.Spec.mm
  refine Finset.sum_congr rfl fun k _ => ?_
  rw [show lidx_main_v37 (ix3 b i j) k = ix3 b i k by idx3,
    show ridx_main_v37 (ix3 b i j) k = ix3 b k j by idx3,
    v29_eq x0 b, v36_eq x0 b]

/-- Z2 = T2 Z1. -/
theorem v38_eq (x0 : (⟨S8x256x128x128, .f32⟩ : BufTy).Contents (Elt Ideal)) (b : Fin 8) (i j : Fin 256) :
    val_main_v38 (F := Ideal) x0 (ix3 b i j) = Zn x0 b 2 i j := by
  rw [val_main_v38_apply]
  show _ = Cert.Spec.mm (Tn x0 b 1) (Zn x0 b 1) i j
  unfold Cert.Spec.mm
  refine Finset.sum_congr rfl fun k _ => ?_
  rw [show lidx_main_v38 (ix3 b i j) k = ix3 b i k by idx3,
    show ridx_main_v38 (ix3 b i j) k = ix3 b k j by idx3,
    v36_eq x0 b, v30_eq x0 b]

/-! ## Step 3 -/

/-- 3 I. -/
theorem v40_eq (b : Fin 8) (i j : Fin 256) :
    val_main_v40 (F := Ideal) (ix3 b i j) = Cert.Spec.c3 * Cert.Spec.eye i j := by
  rw [val_main_v40_apply, val_main_v39_apply, val_main_cst_7_apply, Ideal.mulf_def, Ideal.ofBits_def, v22_eq]
  rfl

/-- The product Z2 Y2: term by term under the sum, from the two factors' lemmas. -/
theorem v41_eq (x0 : (⟨S8x256x128x128, .f32⟩ : BufTy).Contents (Elt Ideal)) (b : Fin 8) (i j : Fin 256) :
    val_main_v41 (F := Ideal) x0 (ix3 b i j) = Cert.Spec.mm (Zn x0 b 2) (Yn x0 b 2) i j := by
  rw [val_main_v41_apply]
  unfold Cert.Spec.mm
  refine Finset.sum_congr rfl fun k _ => ?_
  rw [show lidx_main_v41 (ix3 b i j) k = ix3 b i k by idx3,
    show ridx_main_v41 (ix3 b i j) k = ix3 b k j by idx3,
    v38_eq x0 b, v37_eq x0 b]

/-- 3 I − Z2 Y2. -/
theorem v42_eq (x0 : (⟨S8x256x128x128, .f32⟩ : BufTy).Contents (Elt Ideal)) (b : Fin 8) (i j : Fin 256) :
    val_main_v42 (F := Ideal) x0 (ix3 b i j)
      = Cert.Spec.c3 * Cert.Spec.eye i j - Cert.Spec.mm (Zn x0 b 2) (Yn x0 b 2) i j := by
  rw [val_main_v42_apply, Ideal.subf_def, v40_eq, v41_eq]

/-- The correction T3 = ½ (3 I − Z2 Y2). -/
theorem v44_eq (x0 : (⟨S8x256x128x128, .f32⟩ : BufTy).Contents (Elt Ideal)) (b : Fin 8) (i j : Fin 256) :
    val_main_v44 (F := Ideal) x0 (ix3 b i j) = Tn x0 b 2 i j := by
  rw [val_main_v44_apply, val_main_v43_apply, val_main_cst_8_apply, Ideal.mulf_def, Ideal.ofBits_def, v42_eq]
  rfl

/-- Y3 = Y2 T3. -/
theorem v45_eq (x0 : (⟨S8x256x128x128, .f32⟩ : BufTy).Contents (Elt Ideal)) (b : Fin 8) (i j : Fin 256) :
    val_main_v45 (F := Ideal) x0 (ix3 b i j) = Yn x0 b 3 i j := by
  rw [val_main_v45_apply]
  show _ = Cert.Spec.mm (Yn x0 b 2) (Tn x0 b 2) i j
  unfold Cert.Spec.mm
  refine Finset.sum_congr rfl fun k _ => ?_
  rw [show lidx_main_v45 (ix3 b i j) k = ix3 b i k by idx3,
    show ridx_main_v45 (ix3 b i j) k = ix3 b k j by idx3,
    v37_eq x0 b, v44_eq x0 b]

/-- Z3 = T3 Z2. -/
theorem v46_eq (x0 : (⟨S8x256x128x128, .f32⟩ : BufTy).Contents (Elt Ideal)) (b : Fin 8) (i j : Fin 256) :
    val_main_v46 (F := Ideal) x0 (ix3 b i j) = Zn x0 b 3 i j := by
  rw [val_main_v46_apply]
  show _ = Cert.Spec.mm (Tn x0 b 2) (Zn x0 b 2) i j
  unfold Cert.Spec.mm
  refine Finset.sum_congr rfl fun k _ => ?_
  rw [show lidx_main_v46 (ix3 b i j) k = ix3 b i k by idx3,
    show ridx_main_v46 (ix3 b i j) k = ix3 b k j by idx3,
    v44_eq x0 b, v38_eq x0 b]

/-! ## Step 4 -/

/-- 3 I. -/
theorem v48_eq (b : Fin 8) (i j : Fin 256) :
    val_main_v48 (F := Ideal) (ix3 b i j) = Cert.Spec.c3 * Cert.Spec.eye i j := by
  rw [val_main_v48_apply, val_main_v47_apply, val_main_cst_9_apply, Ideal.mulf_def, Ideal.ofBits_def, v22_eq]
  rfl

/-- The product Z3 Y3: term by term under the sum, from the two factors' lemmas. -/
theorem v49_eq (x0 : (⟨S8x256x128x128, .f32⟩ : BufTy).Contents (Elt Ideal)) (b : Fin 8) (i j : Fin 256) :
    val_main_v49 (F := Ideal) x0 (ix3 b i j) = Cert.Spec.mm (Zn x0 b 3) (Yn x0 b 3) i j := by
  rw [val_main_v49_apply]
  unfold Cert.Spec.mm
  refine Finset.sum_congr rfl fun k _ => ?_
  rw [show lidx_main_v49 (ix3 b i j) k = ix3 b i k by idx3,
    show ridx_main_v49 (ix3 b i j) k = ix3 b k j by idx3,
    v46_eq x0 b, v45_eq x0 b]

/-- 3 I − Z3 Y3. -/
theorem v50_eq (x0 : (⟨S8x256x128x128, .f32⟩ : BufTy).Contents (Elt Ideal)) (b : Fin 8) (i j : Fin 256) :
    val_main_v50 (F := Ideal) x0 (ix3 b i j)
      = Cert.Spec.c3 * Cert.Spec.eye i j - Cert.Spec.mm (Zn x0 b 3) (Yn x0 b 3) i j := by
  rw [val_main_v50_apply, Ideal.subf_def, v48_eq, v49_eq]

/-- The correction T4 = ½ (3 I − Z3 Y3). -/
theorem v52_eq (x0 : (⟨S8x256x128x128, .f32⟩ : BufTy).Contents (Elt Ideal)) (b : Fin 8) (i j : Fin 256) :
    val_main_v52 (F := Ideal) x0 (ix3 b i j) = Tn x0 b 3 i j := by
  rw [val_main_v52_apply, val_main_v51_apply, val_main_cst_10_apply, Ideal.mulf_def, Ideal.ofBits_def, v50_eq]
  rfl

/-- Y4 = Y3 T4. -/
theorem v53_eq (x0 : (⟨S8x256x128x128, .f32⟩ : BufTy).Contents (Elt Ideal)) (b : Fin 8) (i j : Fin 256) :
    val_main_v53 (F := Ideal) x0 (ix3 b i j) = Yn x0 b 4 i j := by
  rw [val_main_v53_apply]
  show _ = Cert.Spec.mm (Yn x0 b 3) (Tn x0 b 3) i j
  unfold Cert.Spec.mm
  refine Finset.sum_congr rfl fun k _ => ?_
  rw [show lidx_main_v53 (ix3 b i j) k = ix3 b i k by idx3,
    show ridx_main_v53 (ix3 b i j) k = ix3 b k j by idx3,
    v45_eq x0 b, v52_eq x0 b]

/-- Z4 = T4 Z3. -/
theorem v54_eq (x0 : (⟨S8x256x128x128, .f32⟩ : BufTy).Contents (Elt Ideal)) (b : Fin 8) (i j : Fin 256) :
    val_main_v54 (F := Ideal) x0 (ix3 b i j) = Zn x0 b 4 i j := by
  rw [val_main_v54_apply]
  show _ = Cert.Spec.mm (Tn x0 b 3) (Zn x0 b 3) i j
  unfold Cert.Spec.mm
  refine Finset.sum_congr rfl fun k _ => ?_
  rw [show lidx_main_v54 (ix3 b i j) k = ix3 b i k by idx3,
    show ridx_main_v54 (ix3 b i j) k = ix3 b k j by idx3,
    v52_eq x0 b, v46_eq x0 b]

/-! ## Step 5 -/

/-- 3 I. -/
theorem v56_eq (b : Fin 8) (i j : Fin 256) :
    val_main_v56 (F := Ideal) (ix3 b i j) = Cert.Spec.c3 * Cert.Spec.eye i j := by
  rw [val_main_v56_apply, val_main_v55_apply, val_main_cst_11_apply, Ideal.mulf_def, Ideal.ofBits_def, v22_eq]
  rfl

/-- The product Z4 Y4: term by term under the sum, from the two factors' lemmas. -/
theorem v57_eq (x0 : (⟨S8x256x128x128, .f32⟩ : BufTy).Contents (Elt Ideal)) (b : Fin 8) (i j : Fin 256) :
    val_main_v57 (F := Ideal) x0 (ix3 b i j) = Cert.Spec.mm (Zn x0 b 4) (Yn x0 b 4) i j := by
  rw [val_main_v57_apply]
  unfold Cert.Spec.mm
  refine Finset.sum_congr rfl fun k _ => ?_
  rw [show lidx_main_v57 (ix3 b i j) k = ix3 b i k by idx3,
    show ridx_main_v57 (ix3 b i j) k = ix3 b k j by idx3,
    v54_eq x0 b, v53_eq x0 b]

/-- 3 I − Z4 Y4. -/
theorem v58_eq (x0 : (⟨S8x256x128x128, .f32⟩ : BufTy).Contents (Elt Ideal)) (b : Fin 8) (i j : Fin 256) :
    val_main_v58 (F := Ideal) x0 (ix3 b i j)
      = Cert.Spec.c3 * Cert.Spec.eye i j - Cert.Spec.mm (Zn x0 b 4) (Yn x0 b 4) i j := by
  rw [val_main_v58_apply, Ideal.subf_def, v56_eq, v57_eq]

/-- The correction T5 = ½ (3 I − Z4 Y4). -/
theorem v60_eq (x0 : (⟨S8x256x128x128, .f32⟩ : BufTy).Contents (Elt Ideal)) (b : Fin 8) (i j : Fin 256) :
    val_main_v60 (F := Ideal) x0 (ix3 b i j) = Tn x0 b 4 i j := by
  rw [val_main_v60_apply, val_main_v59_apply, val_main_cst_12_apply, Ideal.mulf_def, Ideal.ofBits_def, v58_eq]
  rfl

/-- Y5 = Y4 T5. -/
theorem v61_eq (x0 : (⟨S8x256x128x128, .f32⟩ : BufTy).Contents (Elt Ideal)) (b : Fin 8) (i j : Fin 256) :
    val_main_v61 (F := Ideal) x0 (ix3 b i j) = Yn x0 b 5 i j := by
  rw [val_main_v61_apply]
  show _ = Cert.Spec.mm (Yn x0 b 4) (Tn x0 b 4) i j
  unfold Cert.Spec.mm
  refine Finset.sum_congr rfl fun k _ => ?_
  rw [show lidx_main_v61 (ix3 b i j) k = ix3 b i k by idx3,
    show ridx_main_v61 (ix3 b i j) k = ix3 b k j by idx3,
    v53_eq x0 b, v60_eq x0 b]

/-- Z5 = T5 Z4. -/
theorem v62_eq (x0 : (⟨S8x256x128x128, .f32⟩ : BufTy).Contents (Elt Ideal)) (b : Fin 8) (i j : Fin 256) :
    val_main_v62 (F := Ideal) x0 (ix3 b i j) = Zn x0 b 5 i j := by
  rw [val_main_v62_apply]
  show _ = Cert.Spec.mm (Tn x0 b 4) (Zn x0 b 4) i j
  unfold Cert.Spec.mm
  refine Finset.sum_congr rfl fun k _ => ?_
  rw [show lidx_main_v62 (ix3 b i j) k = ix3 b i k by idx3,
    show ridx_main_v62 (ix3 b i j) k = ix3 b k j by idx3,
    v60_eq x0 b, v54_eq x0 b]

/-! ## The row means of Z₅ / √‖A‖ -/

/-- The fifth step's Z, divided entry by entry by the square root of the Frobenius norm. -/
theorem v65_eq (x0 : (⟨S8x256x128x128, .f32⟩ : BufTy).Contents (Elt Ideal)) (b : Fin 8) (i j : Fin 256) :
    val_main_v65 (F := Ideal) x0 (ix3 b i j)
      = Ideal.div (Cert.Spec.z5 (covOf x0 b) i j) (Ideal.sqrt (Cert.Spec.frob (covOf x0 b))) := by
  rw [val_main_v65_apply, Ideal.hostDivf_def, val_main_v64_apply,
    show idx_main_v64 (ix3 b i j) = ix3 b 0 0 by idx3,
    val_main_v63_apply, Ideal.hostUnary_sqrt_def, v13_eq, v62_eq]
  rfl

/-- The row sum from zero, divided by the number of columns: the channel statistic. -/
theorem ref_y_cov (x0 : (⟨S8x256x128x128, .f32⟩ : BufTy).Contents (Elt Ideal)) (b : Fin 8) (c : Fin 256) :
    val_main_v68 (F := Ideal) x0 (ix2 b c) = Cert.Spec.nsY (covOf x0 b) c := by
  rw [val_main_v68_apply, Ideal.hostDivf_def, val_main_v67_apply, val_main_cst_14_apply, Ideal.ofBits_def,
    val_main_v66_apply, val_main_cst_13_apply, Ideal.ofBits_def, Ideal.ofBits_zero_f32, zero_add]
  unfold Cert.Spec.nsY
  refine congrArg₂ Ideal.div (Finset.sum_congr rfl fun k _ => ?_) rfl
  rw [show idx_main_v66 (ix2 b c) k = ix3 b c k by idx3, v65_eq]

/-- The reference's stages from the covariance to the row means are, batch by batch, the channel
    statistic of that batch's covariance matrix. -/
theorem ref_y (x0 : (⟨S8x256x128x128, .f32⟩ : BufTy).Contents (Elt Ideal)) (b : Fin 8) (c : Fin 256) :
    val_main_v68 (F := Ideal) x0 (ix2 b c) = Cert.Spec.nsY (fun i j => val_main_v9 (F := Ideal) x0 (ix3 b i j)) c :=
  ref_y_cov x0 b c

end Cert.ReferenceIdeal.NsRef

end
-- ==== Proof.Bridge.lean ====
/-
  The one equation between the two programs' results.

  The kernel program reshapes x to X[b, c, m], leaves the statistic y[b, c] = nsY (covK X b) c, applies the host
  gate to it, multiplies X by the gate along the positions and reshapes back. The reference computes the statistic
  from the centred covariance, applies the same host gate, and multiplies x by the gate broadcast over the two
  spatial axes. The statistics agree on finite entries (the covariance law), the gates are the same composition
  of host operations, and the reshape round trip returns every entry to its place.
-/
import proofs.«123247_j31610959298823_2_alg».proof.Proof.KGate
import proofs.«123247_j31610959298823_2_alg».proof.Proof.Gen.KernelIdeal
import proofs.«123247_j31610959298823_2_alg».proof.Proof.RefReadP
import proofs.«123247_j31610959298823_2_alg».proof.Proof.Spec
import proofs.«123247_j31610959298823_2_alg».proof.Proof.CovLaw
import proofs.«123247_j31610959298823_2_alg».proof.Proof.CovRef
import proofs.«123247_j31610959298823_2_alg».proof.Proof.NsRef
import Idealize.ShloMosaic.Lib.Pipeline.Value
import Idealize.ShloMosaic.Lib.ValueIdx

noncomputable section

open scoped BigOperators

namespace Cert.Bridge

open Cert.KernelIdeal Cert.ReferenceIdeal.ReadP Idealize.ShloMosaic Idealize.ShloMosaic.ValueIdx
open Idealize.ShloMosaic.TcCoe

/-- The reference's gate stages are the host gate of the reference's channel statistic: stage by stage the two
    are the same operations on the same operands. -/
theorem gate_eq (x0 : FVec Ideal S8x256x128x128 .f32) (x1 : FVec Ideal S32x256 .f32) (x2 : FVec Ideal S32 .f32)
    (x3 : FVec Ideal S256x32 .f32) (x4 : FVec Ideal S256 .f32) :
    val_main_v85 (F := Ideal) x0 x1 x2 x3 x4
      = Cert.KernelIdeal.KGate.gate2 (F := Ideal) (val_main_v68 (F := Ideal) x0) x1 x2 x3 x4 := rfl

/-- Finiteness of the input passes to its reshaping. -/
theorem fin_v0 (x0 : FVec Ideal S8x256x128x128 .f32) (hfin : ∀ i, ∃ r : ℝ, x0 i = (r : EReal)) :
    ∀ i, ∃ r : ℝ, val_main_v0 (F := Ideal) x0 i = (r : EReal) := fun i => by
  rw [val_main_v0_apply]; exact hfin _

/-- The reference's channel statistic is the Newton–Schulz statistic of the covariance in its raw-moment form:
    the reference computes it from the centred form, and on finite entries the two covariances agree. -/
theorem stat_eq (x0 : FVec Ideal S8x256x128x128 .f32) (hfin : ∀ i, ∃ r : ℝ, x0 i = (r : EReal))
    (b : Fin 8) (c : Fin 256) :
    val_main_v68 (F := Ideal) x0 (ix2 b c)
      = Cert.Spec.nsY (Cert.Spec.covK (val_main_v0 (F := Ideal) x0) b) c := by
  rw [Cert.ReferenceIdeal.NsRef.ref_y]
  have hcov : (fun i j => val_main_v9 (F := Ideal) x0 (ix3 b i j))
      = Cert.Spec.covK (val_main_v0 (F := Ideal) x0) b := by
    funext i j
    rw [Cert.ReferenceIdeal.CovRef.ref_cov, Cert.CovLaw.cov_law _ (fin_v0 x0 hfin)]
  rw [hcov]

/-- The statistic as the kernel leaves it, [8, 256, 1], read as an [8, 256] array, is the reference's statistic. -/
theorem y3_eq (x0 : FVec Ideal S8x256x128x128 .f32) (h1 : S8x256x128x128.ShapeCasts S8x256x16384)
    (hfin : ∀ i, ∃ r : ℝ, x0 i = (r : EReal)) (hc : S8x256x1.ShapeCasts S8x256) :
    shapeCast S8x256
        (fun i : S8x256x1.Idx => Cert.Spec.nsY (Cert.Spec.covK (shapeCast S8x256x16384 x0 h1) (i 0)) (i 1)) hc
      = val_main_v68 (F := Ideal) x0 := by
  funext j
  obtain ⟨b, c, rfl⟩ : ∃ (b : Fin 8) (c : Fin 256), j = ix2 b c := ⟨j 0, j 1, eq_ix2 j⟩
  rw [shapeCast_apply _ hc (ix2 b c) (ix3 b c (0 : Fin 1))
    (by rewrite [Shape.rowMajor_val_three, Shape.rowMajor_val_two]
        show (b.val * 256 + c.val) * 1 + 0 = b.val * 256 + c.val
        omega),
    stat_eq x0 hfin b c]
  rfl

/-- The gate's broadcast to the input's shape reads the gate at (b, c). -/
theorem idx8687 (b : Fin 8) (c : Fin 256) (h w : Fin 128) :
    idx_main_v86 (idx_main_v87 (ix4 b c h w)) = ix2 b c :=
  funext fun a => Fin.ext (by match a with | ⟨0, _⟩ => rfl | ⟨1, _⟩ => rfl)

/-- The two programs' results agree: the input reshaped to [8, 256, 16384], multiplied along the positions by the
    gate of the statistic, and reshaped back, is the reference's last stage. At the index (b, c, h, w) both sides
    are x[b, c, h, w] times the gate at (b, c); the gates agree because the statistics do. -/
theorem out_eq (x0 : FVec Ideal S8x256x128x128 .f32) (x1 : FVec Ideal S32x256 .f32) (x2 : FVec Ideal S32 .f32) (x3 : FVec Ideal S256x32 .f32) (x4 : FVec Ideal S256 .f32)
    (h1 : S8x256x128x128.ShapeCasts S8x256x16384) (h2 : S8x256x16384.ShapeCasts S8x256x128x128)
    (hfin : ∀ i, ∃ r : ℝ, x0 i = (r : EReal)) :
    shapeCast S8x256x128x128
      (Cert.Spec.gated (shapeCast S8x256x16384 x0 h1)
        (Cert.KernelIdeal.KGate.gate3 (F := Ideal) (fun i => Cert.Spec.nsY (Cert.Spec.covK (shapeCast S8x256x16384 x0 h1) (i 0)) (i 1)) x1 x2 x3 x4)) h2
    = Cert.ReferenceIdeal.ReadP.val_main_v88 (F := Ideal) x0 x1 x2 x3 x4 := by
  funext i
  obtain ⟨b, c, h, w, rfl⟩ : ∃ (b : Fin 8) (c : Fin 256) (h w : Fin 128), i = ix4 b c h w :=
    ⟨i 0, i 1, i 2, i 3, eq_ix4 i⟩
  have hp : 128 * h.val + w.val < 16384 := by omega
  refine (shapeCast_apply _ h2 (ix4 b c h w) (ix3 b c (⟨128 * h.val + w.val, hp⟩ : Fin 16384))
    (by rewrite [Shape.rowMajor_val_three, Shape.rowMajor_val_four]
        show (b.val * 256 + c.val) * 16384 + (128 * h.val + w.val)
          = ((b.val * 256 + c.val) * 128 + h.val) * 128 + w.val
        omega)).trans ?_
  show shapeCast S8x256x16384 x0 h1 (ix3 b c (⟨128 * h.val + w.val, hp⟩ : Fin 16384))
      * Cert.KernelIdeal.KGate.gate3 (F := Ideal) (fun i => Cert.Spec.nsY (Cert.Spec.covK (shapeCast S8x256x16384 x0 h1) (i 0)) (i 1)) x1 x2 x3 x4 (ix3 b c (0 : Fin 1))
    = _
  rw [shapeCast_apply x0 h1 (ix3 b c (⟨128 * h.val + w.val, hp⟩ : Fin 16384)) (ix4 b c h w)
    (by rewrite [Shape.rowMajor_val_three, Shape.rowMajor_val_four]
        show ((b.val * 256 + c.val) * 128 + h.val) * 128 + w.val
          = (b.val * 256 + c.val) * 16384 + (128 * h.val + w.val)
        omega)]
  unfold Cert.KernelIdeal.KGate.gate3
  rw [shapeCast_apply _ _ (ix3 b c (0 : Fin 1)) (ix2 b c)
    (by rewrite [Shape.rowMajor_val_three, Shape.rowMajor_val_two]
        show b.val * 256 + c.val = (b.val * 256 + c.val) * 1 + 0
        omega),
    y3_eq x0 h1 hfin,
    val_main_v88_apply, Ideal.mulf_def, val_main_v87_apply, val_main_v86_apply, idx8687, gate_eq]

end Cert.Bridge

end
-- ==== Proof.Finite.lean ====
/-
  From the precondition to finiteness of the activations.

  The precondition is the conjunction, over the five argument arrays, of "every entry has absolute value
  below +∞". Its first conjunct concerns the activations x: the comparison |x i| < +∞ holds at every
  index. An extended real whose absolute value max(x, −x) is below ⊤ is neither ⊥ nor ⊤, so it is a real.
-/
import proofs.«123247_j31610959298823_2_alg».proof.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Idealize.ShloMosaic.ValueIdx

/-- The scalar shape has one index. -/
instance : Subsingleton Cert.Pre_finite_inputs.S_.Idx := ⟨fun _ _ => funext fun d => d.elim0⟩

/-- The float word of +∞ denotes ⊤. -/
theorem ofBits_inf : Ideal.ofBits .f32 0x7F800000#32 = ⊤ := by
  simp [Ideal.ofBits, Ideal.ieee]

/-- A one-bit word built from a Boolean is 1 exactly when the Boolean is true. -/
theorem ofBool_eq_one {b : Bool} : BitVec.ofBool b = 1#1 ↔ b = true := by cases b <;> decide

/-- An extended real whose absolute value is below ⊤ is a real number. -/
theorem real_of_abs_lt_top (x : EReal) (h : max x (-x) < ⊤) : ∃ r : ℝ, x = (r : EReal) := by
  induction x using EReal.rec
  · simp at h
  · exact ⟨_, rfl⟩
  · simp at h

/-- Under the precondition every entry of the activations is a real number. -/
theorem finite_x [Cert.Pre_finite_inputs.Facts]
    (a0 : (⟨⟨4, ![8, 256, 128, 128]⟩, .f32⟩ : BufTy).Contents (Elt Ideal))
    (a1 : FVec Ideal Cert.Pre_finite_inputs.S32x256 .f32)
    (a2 : FVec Ideal Cert.Pre_finite_inputs.S32 .f32)
    (a3 : FVec Ideal Cert.Pre_finite_inputs.S256x32 .f32)
    (a4 : FVec Ideal Cert.Pre_finite_inputs.S256 .f32)
    (h : Cert.Pre_finite_inputs.fn (F := Ideal) a0 a1 a2 a3 a4 = fun _ => 1#1) :
    ∀ i, ∃ r : ℝ, a0 i = (r : EReal) := by
  intro i
  have h0 := congrFun h ValueIdx.ix0
  dsimp only [Cert.Pre_finite_inputs.fn, Cert.Pre_finite_inputs.fn_part1, andi] at h0
  have h3 := (IntOp.andi_eq_one.1 (IntOp.andi_eq_one.1 (IntOp.andi_eq_one.1 (IntOp.andi_eq_one.1 h0).1).1).1).1
  have hi := Host.reduce_andi_all _ _ _ _ _ h3 i
  dsimp only [cmpf, Host.absf, broadcastInDim, constant] at hi
  rw [Ideal.cmpf_def, Ideal.hostAbsf_def, Ideal.absf_def, Ideal.ofBits_def, ofBits_inf] at hi
  refine real_of_abs_lt_top _ ?_
  simpa [Ideal.cmp, ofBool_eq_one] using hi

end Cert.Finite

end
-- ==== Proof.lean ====
/-
  The certificate of the covariance-gated kernel against its reference.

  The kernel reshapes x[b, c, h, w] to X[b, c, m] (m = 128·h + w), accumulates per batch the channel sums and the
  raw second moments Σ_m X[c, m]·X[d, m] over four tiles of 4096 positions (region 0), forms the covariance
  R/M − (s/M)(s/M)ᵀ, normalises it by its Frobenius norm, takes five coupled Newton–Schulz steps towards its
  inverse square root and stores the row means y[b, c] (region 1), computes on the host the gate
  1 / (1 + exp (−(relu (y·w1ᵀ + b1)·w2ᵀ + b2))), and multiplies X by the gate along the positions (region 2).
  The reference does the same in one host program, except that it subtracts the channel means BEFORE the
  product: its covariance is Σ_m (X[c, m] − μ_c)(X[d, m] − μ_d) / M.

  At the ideal values the two covariances agree whenever every entry of x is a real number — the one place the
  precondition is used: Σ (X_c − μ_c)(X_d − μ_d) = Σ X_c X_d − M μ_c μ_d needs the products to distribute over
  the sums, which fails at an infinity. Everything after the covariance is the same arithmetic on both sides
  (sums in another grouping only: addition of extended reals is commutative and associative), so both
  statistics are Spec's nsY of one matrix and the gates and results coincide.

  The frames of the two kernel programs are the generated frame certificates; the reference's frame is its run
  with the result dropped; the ideal pass rewrote nothing, so its conjunct is trivial.
-/
import proofs.«123247_j31610959298823_2_alg».proof.Defs
import proofs.«123247_j31610959298823_2_alg».proof.Proof.Gen.Kernel
import proofs.«123247_j31610959298823_2_alg».proof.Proof.Gen.Kernel.Skeleton
import proofs.«123247_j31610959298823_2_alg».proof.Proof.Gen.Kernel.Launch
import proofs.«123247_j31610959298823_2_alg».proof.Proof.Gen.Kernel.Points
import proofs.«123247_j31610959298823_2_alg».proof.Proof.Gen.Kernel.Frame
import proofs.«123247_j31610959298823_2_alg».proof.Proof.Gen.KernelIdeal
import proofs.«123247_j31610959298823_2_alg».proof.Proof.Gen.KernelIdeal.Skeleton
import proofs.«123247_j31610959298823_2_alg».proof.Proof.Gen.KernelIdeal.Launch
import proofs.«123247_j31610959298823_2_alg».proof.Proof.Gen.KernelIdeal.Points
import proofs.«123247_j31610959298823_2_alg».proof.Proof.Gen.KernelIdeal.Frame
import proofs.«123247_j31610959298823_2_alg».proof.Proof.Gen.ReferenceIdeal
import proofs.«123247_j31610959298823_2_alg».proof.Proof.Gen.Pre_finite_inputs
import proofs.«123247_j31610959298823_2_alg».proof.Proof.RefRunP
import proofs.«123247_j31610959298823_2_alg».proof.Proof.RefReadP
import proofs.«123247_j31610959298823_2_alg».proof.Proof.RefRes
import proofs.«123247_j31610959298823_2_alg».proof.Proof.Spec
import proofs.«123247_j31610959298823_2_alg».proof.Proof.KRun
import proofs.«123247_j31610959298823_2_alg».proof.Proof.KValue
import proofs.«123247_j31610959298823_2_alg».proof.Proof.Bridge
import proofs.«123247_j31610959298823_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments in place. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- Both programs end with x times the gate of the statistic nsY (cov X b): the kernel's result walked back through
    its regions, the reference's read stage by stage, and the two covariances equal on finite entries. -/
theorem algebraic : Cert.algebraic_KernelIdeal_ReferenceIdeal := by
  intro m ρ m' ρ' hpre hagree
  refine ⟨fun c => Cert.ReferenceIdeal.ReadP.val_main_v88 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.KRun.run_named (F := Ideal) m ρ)
    refine (Cert.KernelIdeal.KValue.result_eq m ρ c).trans ?_
    exact Cert.Bridge.out_eq _ _ _ _ _ _ _ (Cert.Finite.finite_x _ _ _ _ _ (hpre c))
  · refine (θ_run Cert.ReferenceIdeal.defs _ _).mono (fun r h c => ⟨(h c).1.trans ?_, (h c).2⟩)
      (Cert.ReferenceIdeal.ValueP.run (F := Ideal) m' ρ')
    rw [Cert.ReferenceIdeal.RefRes.res_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
